-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S850000x128 : Shape := ⟨2, ![850000, 128]⟩
abbrev S50000x64 : Shape := ⟨2, ![50000, 64]⟩
abbrev S5000x64 : Shape := ⟨2, ![5000, 64]⟩
abbrev S850000x64 : Shape := ⟨2, ![850000, 64]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S1x64, .f32⟩
  | .hbm, ⟨30, _⟩ => ⟨S50000x128, .bf16⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .bf16⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S50000x64, .bf16⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .bf16⟩
  | .hbm, ⟨55, _⟩ => ⟨S850000x64, .f32⟩
  | .hbm, ⟨56, _⟩ => ⟨S_, .f32⟩
  | .hbm, ⟨57, _⟩ => ⟨S50000x64, .f32⟩
  | .hbm, ⟨58, _⟩ => ⟨S850000x1, .i32⟩
  | .hbm, ⟨59, _⟩ => ⟨S50000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S850000, .i32⟩
  | 71 => ⟨S850000, .i32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S_, .f32⟩
  | 7 => ⟨S50000, .f32⟩
  | 8 => ⟨S50000x1, .f32⟩
  | 9 => ⟨S50000x1, .f32⟩
  | 10 => ⟨S50000x64, .f32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result NAMED: every weakly fair execution of @main terminates, nothing faulting,
  with the result array at what the last region's write-backs leave of it — the buffer contents folded through @main's
  eight segments (three stretches of host operations, region 0, a stretch, region 1, a stretch, region 2) — and the
  arguments unchanged. The launch over the segments is the frame's; only the final state is read at one more buffer.
-/
import proofs.«130009_j68779606278426_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: the result array ends at the last boundary's contents, the arguments as launched. -/
theorem run_out : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Out

end
-- ==== Proof.Spec.lean ====
/-
  The mathematics of a two-layer graph convolution followed by a row-wise log-softmax, as functions of whole arrays
  of extended reals, index by index. Nothing here mentions a program.

  With `d` the column of inverse square-root degrees (one entry per node):
  * `scaledProduct x w d` is the first layer's dense part, `(x · w)` with row `r` multiplied by `d r`;
  * `hiddenScaled a d b w` takes the first layer's aggregated rows `a`, scales row `r` by `d r`, adds the bias row `b`,
    clamps at zero, multiplies by `w`, and scales row `r` by `d r` again (the second layer's dense part);
  * `logits a d b` scales row `r` of `a` by `d r` and adds the bias row;
  * `logSoftmaxRows z` subtracts from each entry its row's maximum and the logarithm of the row's sum of
    exponentials of the shifted entries.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Arr (n m : Nat) : Type := (⟨2, ![n, m]⟩ : Shape).Idx → EReal

/-- Entry `(r, c)` of `(x · w)` with row `r` scaled by `d r`. -/
def scaledProductAt (x : Arr 50000 128) (w : Arr 128 128) (d : Arr 50000 1) (r : Fin 50000) (c : Fin 128) : EReal :=
  (∑ k : Fin 128, x (ix2 r k) * w (ix2 k c)) * d (ix2 r (0 : Fin 1))

/-- `(x · w)` with every row scaled by its entry of `d`. -/
def scaledProduct (x : Arr 50000 128) (w : Arr 128 128) (d : Arr 50000 1) : Arr 50000 128 :=
  fun i => scaledProductAt x w d (i 0) (i 1)

/-- Entry `(r, c)` of `max (a · diag d + b) 0 · w` with row `r` scaled by `d r`. -/
def hiddenScaledAt (a : Arr 50000 128) (d : Arr 50000 1) (b : Arr 1 128) (w : Arr 128 64) (r : Fin 50000) (c : Fin 64) : EReal :=
  (∑ k : Fin 128, max (a (ix2 r k) * d (ix2 r (0 : Fin 1)) + b (ix2 (0 : Fin 1) k)) 0 * w (ix2 k c)) * d (ix2 r (0 : Fin 1))

/-- The second layer's dense part on whole arrays. -/
def hiddenScaled (a : Arr 50000 128) (d : Arr 50000 1) (b : Arr 1 128) (w : Arr 128 64) : Arr 50000 64 :=
  fun i => hiddenScaledAt a d b w (i 0) (i 1)

/-- Row `r` of `a` scaled by `d r`, plus the bias row. -/
def logits (a : Arr 50000 64) (d : Arr 50000 1) (b : Arr 1 64) : Arr 50000 64 :=
  fun i => a i * d (ix2 (i 0) (0 : Fin 1)) + b (ix2 (0 : Fin 1) (i 1))

/-- The maximum of row `r` (the fold of `max` from `-∞` over the row's 64 entries). -/
def rowMax (z : Arr 50000 64) (r : Fin 50000) : EReal :=
  (Finset.univ : Finset (Fin 64)).fold max (⊥ : EReal) (fun c => z (ix2 r c))

/-- Entry `(r, c)` of the row-wise log-softmax. -/
def logSoftmaxAt (z : Arr 50000 64) (r : Fin 50000) (c : Fin 64) : EReal :=
  (z (ix2 r c) - rowMax z r) - Ideal.log (∑ k : Fin 64, Ideal.exp (z (ix2 r k) - rowMax z r))

/-- The row-wise log-softmax of a `50000 × 64` array. -/
def logSoftmaxRows (z : Arr 50000 64) : Arr 50000 64 :=
  fun i => logSoftmaxAt z (i 0) (i 1)

end Cert.Spec

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.RegionLinear.lean ====
/-
  The first layer's dense part, read off the first grid of the idealized kernel.

  The grid has ten points; point `t` loads rows `5000 t … 5000 t + 4999` of the feature array and of the column of
  inverse square-root degrees, and the whole weight, and stores, for each of those rows `r` and each column `c`,
  `(∑ k, x r k · w k c) · d r`. That entry depends on row `r` of `x`, column `c` of `w` and entry `r` of `d` only, so
  each stored block is the block of one function of the whole arrays (`Cert.Spec.scaledProduct`), and the ten
  blocks cover the 50000 rows: the output array ends holding that function. Everything is stated for arbitrary
  contents of the arrays at the moment the grid is entered.
-/
import proofs.«130009_j68779606278426_2_alg».proof.Proof.Spec
import proofs.«130009_j68779606278426_2_alg».proof.Proof.Gen.KernelIdeal.Frame
import proofs.«130009_j68779606278426_2_alg».proof.Proof.LibKeepdims
import proofs.«130009_j68779606278426_2_alg».proof.Proof.LibPlainDot
import Idealize.ShloMosaic.Lib.Pipeline.Value
import Idealize.ShloMosaic.Lib.ValueIdx
import Idealize.ShloMosaic.PureOps.Ideal.Laws

noncomputable section
namespace Cert.KernelIdeal.RegionLinear
open Idealize.ShloMosaic Idealize.ShloMosaic.TcCoe Idealize.SL.Sem Idealize.ShloMosaic.Pipeline Idealize.ShloMosaic.ValueIdx
open Cert.KernelIdeal Cert.KernelIdeal.Gen
open scoped BigOperators

/-! ## The body's arithmetic at one entry of a block -/

/-- Entry `(p, q)` of what the body stores: row `p` of the loaded `x` block times column `q` of the weight,
    multiplied by the row's entry of the loaded column block (the narrowing to bf16 is the identity on extended reals). -/
theorem pay_apply (x : Vec Ideal S5000x128 .f32) (w : Vec Ideal S128x128 .f32) (d : Vec Ideal S5000x1 .f32)
    (p : Fin 5000) (q : Fin 128) :
    k0_pay1 (F := Ideal) x w d (ix2 p q)
      = (∑ k : Fin 128, x (ix2 p k) * w (ix2 k q)) * d (ix2 p (0 : Fin 1)) := by
  unfold k0_pay1
  show (matmul (F := Ideal) dot_S5000x128_S128x128_S5000x128_1_0_0_1_n_n none x w (constant S5000x128 .f32 0x00000000#32) (ix2 p q) : EReal)
      * (broadcastTo S5000x128 (shapeCast S5000x1 d shapeCasts_S5000x1_S5000x1) broadcasts_S5000x1_S5000x128 (ix2 p q) : EReal) = _
  refine congrArg₂ (· * ·) (matmul_plain_zero_apply dot_S5000x128_S128x128_S5000x128_1_0_0_1_n_n rfl none x w p q) ?_
  refine (broadcastTo_a1_ab_apply (shapeCast S5000x1 d shapeCasts_S5000x1_S5000x1) broadcasts_S5000x1_S5000x128 p q).trans ?_
  rw [shapeCast_self]

/-! ## The windows' blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the row-blocked windows sit at block row `t`, the weight at its only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of the `x` window's block at point `t` is entry `(5000 t + p, k)` of its array. -/
theorem blk_x (c : Dev nD) (t : Fin cfg0.N) (p : Fin 5000) (k : Fin 128) (r : Fin 50000) (hr : r.val = 5000 * t.val + p.val) :
    (iblk0 V c 0 t : Vec Ideal S5000x128 .f32) (ix2 p k) = (V c (Pipeline.arrRef spec0 0) : Cert.Spec.Arr 50000 128) (ix2 r k) := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the whole weight. -/
theorem blk_w (c : Dev nD) (t : Fin cfg0.N) (k : Fin 128) (q : Fin 128) :
    (iblk0 V c 1 t : Vec Ideal S128x128 .f32) (ix2 k q) = (V c (Pipeline.arrRef spec0 1) : Cert.Spec.Arr 128 128) (ix2 k q) := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry `(p, 0)` of the column window's block at point `t` is entry `(5000 t + p, 0)` of the column. -/
theorem blk_d (c : Dev nD) (t : Fin cfg0.N) (p : Fin 5000) (r : Fin 50000) (hr : r.val = 5000 * t.val + p.val) :
    (iblk0 V c 2 t : Vec Ideal S5000x1 .f32) (ix2 p (0 : Fin 1)) = (V c (Pipeline.arrRef spec0 2) : Cert.Spec.Arr 50000 1) (ix2 r (0 : Fin 1)) := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; rw [e1]; rfl

/-! ## From blocks to the array -/

/-- What point `t` writes back is block `t` of the scaled product of the region's three input arrays. -/
theorem flushed_eq (c : Dev nD) (t : Fin cfg0.N) :
    (dat0 (F := Ideal) V c).flushed 3 t
      = ((cfg0.win 3).blk t).view.read (Elt Ideal)
          (Cert.Spec.scaledProduct (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg0.win 3).blk t).view.emb (ix2 p q) = (ix2 (⟨5000 * t.val + p.val, hr⟩ : Fin 50000) q : S50000x128.Idx) := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
      = Cert.Spec.scaledProduct (V c (Pipeline.arrRef spec0 0)) (V c (Pipeline.arrRef spec0 1)) (V c (Pipeline.arrRef spec0 2)) (((cfg0.win 3).blk t).view.emb (ix2 p q))
  rw [hemb]
  refine (pay_apply (iblk0 V c 0 t) (iblk0 V c 1 t) (iblk0 V c 2 t) p q).trans ?_
  show _ = Cert.Spec.scaledProductAt _ _ _ (⟨5000 * t.val + p.val, hr⟩ : Fin 50000) q
  unfold Cert.Spec.scaledProductAt
  refine congrArg₂ (· * ·) (Finset.sum_congr rfl fun k _ => congrArg₂ (· * ·) ?_ ?_) ?_
  · exact blk_x V c t p k _ rfl
  · exact blk_w V c t k q
  · exact blk_d V c t p _ rfl

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row `r` of the output lies in the block of point `r / 5000`: the ten blocks cover the array. -/
theorem cover (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨-, -, -, -, -, -, e0, e1⟩ := idx_facts t
  have e0' : win0_3.index t (0 : Fin 2) = (i 0).val / 5000 := e0
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The first region leaves, in its output array, the scaled product of its three input arrays as it found them. -/
theorem linear_value (c : Dev nD) :
    (dat0 (F := Ideal) V c).arrAt 3 cfg0.N
      = Cert.Spec.scaledProduct (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.RegionLinear
end
-- ==== Proof.RegionHidden.lean ====
/-
  The second layer's dense part, read off the second grid of the idealized kernel.

  The grid has ten points; point `t` loads rows `5000 t … 5000 t + 4999` of the aggregated first-layer array and of the
  column of inverse square-root degrees (the column twice), the whole bias row and the whole weight, and stores, for
  each of those rows `r` and each column `c`, `(∑ k, max (a r k · d r + b k) 0 · w k c) · d r`. That entry depends on row
  `r` of `a`, entry `r` of `d`, the bias row and column `c` of `w` only, so each stored block is the block of one function
  of the whole arrays (`Cert.Spec.hiddenScaled`), and the ten blocks cover the 50000 rows: the output array ends holding
  that function. Everything is stated for arbitrary contents of the arrays at the moment the grid is entered.
-/
import proofs.«130009_j68779606278426_2_alg».proof.Proof.Spec
import proofs.«130009_j68779606278426_2_alg».proof.Proof.Gen.KernelIdeal.Frame
import proofs.«130009_j68779606278426_2_alg».proof.Proof.LibKeepdims
import proofs.«130009_j68779606278426_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionHidden
open Idealize.ShloMosaic Idealize.ShloMosaic.TcCoe Idealize.SL.Sem Idealize.ShloMosaic.Pipeline Idealize.ShloMosaic.ValueIdx
open Cert.KernelIdeal Cert.KernelIdeal.Gen
open scoped BigOperators

/-! ## The body's arithmetic at one entry of a block -/

/-- The left operand of the body's matrix product: the aggregate block with row `p` scaled by the column's entry of
    row `p`, plus the bias row, clamped below at zero. -/
def hid (a : Vec Ideal S5000x128 .f32) (d : Vec Ideal S5000x1 .f32) (b : Vec Ideal S1x128 .f32) : FVec Ideal S5000x128 .f32 :=
  maximumf
    (addf
      (mulf (shapeCast S5000x128 a shapeCasts_S5000x128_S5000x128)
        (broadcastTo S5000x128 (shapeCast S5000x1 d shapeCasts_S5000x1_S5000x1) broadcasts_S5000x1_S5000x128))
      (broadcastTo S5000x128 (shapeCast S1x128 b shapeCasts_S1x128_S1x128) broadcasts_S1x128_S5000x128))
    (broadcast S5000x128 (Scalar.ofBits (F := Ideal) .f32 0x00000000#32))

/-- Entry `(p, k)` of that operand. -/
theorem hid_apply (a : Vec Ideal S5000x128 .f32) (d : Vec Ideal S5000x1 .f32) (b : Vec Ideal S1x128 .f32)
    (p : Fin 5000) (k : Fin 128) :
    hid a d b (ix2 p k) = max (a (ix2 p k) * d (ix2 p (0 : Fin 1)) + b (ix2 (0 : Fin 1) k)) 0 := by
  unfold hid
  show max ((shapeCast S5000x128 a shapeCasts_S5000x128_S5000x128 (ix2 p k) : EReal)
        * (broadcastTo S5000x128 (shapeCast S5000x1 d shapeCasts_S5000x1_S5000x1) broadcasts_S5000x1_S5000x128 (ix2 p k) : EReal)
      + (broadcastTo S5000x128 (shapeCast S1x128 b shapeCasts_S1x128_S1x128) broadcasts_S1x128_S5000x128 (ix2 p k) : EReal))
      (Ideal.ofBits .f32 0x00000000#32) = _
  rw [shapeCast_self, shapeCast_self, shapeCast_self, broadcastTo_a1_ab_apply, broadcastTo_1b_ab_apply, Ideal.ofBits_zero_f32]

/-- Entry `(p, q)` of what the body stores: row `p` of the clamped operand times column `q` of the weight, multiplied
    by the row's entry of the column block as loaded the second time (the narrowing to bf16 is the identity on extended reals). -/
theorem pay_apply (a : Vec Ideal S5000x128 .f32) (d : Vec Ideal S5000x1 .f32) (b : Vec Ideal S1x128 .f32)
    (w : Vec Ideal S128x64 .f32) (d' : Vec Ideal S5000x1 .f32) (p : Fin 5000) (q : Fin 64) :
    k1_pay1 (F := Ideal) a d b w d' (ix2 p q)
      = (∑ k : Fin 128, max (a (ix2 p k) * d (ix2 p (0 : Fin 1)) + b (ix2 (0 : Fin 1) k)) 0 * w (ix2 k q))
          * d' (ix2 p (0 : Fin 1)) := by
  unfold k1_pay1
  show (matmul (F := Ideal) dot_S5000x128_S128x64_S5000x64_1_0_0_1_n_n none (hid a d b) w (constant S5000x64 .f32 0x00000000#32) (ix2 p q) : EReal)
      * (broadcastTo S5000x64 (shapeCast S5000x1 d' shapeCasts_S5000x1_S5000x1) broadcasts_S5000x1_S5000x64 (ix2 p q) : EReal) = _
  refine congrArg₂ (· * ·)
    ((matmul_plain_zero_apply dot_S5000x128_S128x64_S5000x64_1_0_0_1_n_n rfl none (hid a d b) w p q).trans
      (Finset.sum_congr rfl fun k _ => congrArg (· * w (ix2 k q)) (hid_apply a d b p k))) ?_
  refine (broadcastTo_a1_ab_apply (shapeCast S5000x1 d' shapeCasts_S5000x1_S5000x1) broadcasts_S5000x1_S5000x64 p q).trans ?_
  rw [shapeCast_self]

/-! ## The windows' blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the row-blocked windows sit at block row `t`, the bias row and the
    weight at their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the aggregate window's block at point `t` is entry `(5000 t + p, k)` of its array. -/
theorem blk_a (c : Dev nD) (t : Fin cfg1.N) (p : Fin 5000) (k : Fin 128) (r : Fin 50000) (hr : r.val = 5000 * t.val + p.val) :
    (iblk1 V c 0 t : Vec Ideal S5000x128 .f32) (ix2 p k) = (V c (Pipeline.arrRef spec1 0) : Cert.Spec.Arr 50000 128) (ix2 r k) := by
  obtain ⟨e0, e1, -⟩ := idx_facts t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry `(p, 0)` of the column window's block at point `t` is entry `(5000 t + p, 0)` of the column. -/
theorem blk_d (c : Dev nD) (t : Fin cfg1.N) (p : Fin 5000) (r : Fin 50000) (hr : r.val = 5000 * t.val + p.val) :
    (iblk1 V c 1 t : Vec Ideal S5000x1 .f32) (ix2 p (0 : Fin 1)) = (V c (Pipeline.arrRef spec1 1) : Cert.Spec.Arr 50000 1) (ix2 r (0 : Fin 1)) := by
  obtain ⟨-, -, e0, e1, -⟩ := idx_facts t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * (0 : Fin 1).val = (0 : Fin 1).val; rw [e1]; rfl

/-- The bias window's block at every point is the whole bias row. -/
theorem blk_b (c : Dev nD) (t : Fin cfg1.N) (k : Fin 128) :
    (iblk1 V c 2 t : Vec Ideal S1x128 .f32) (ix2 (0 : Fin 1) k) = (V c (Pipeline.arrRef spec1 2) : Cert.Spec.Arr 1 128) (ix2 (0 : Fin 1) k) := by
  obtain ⟨-, -, -, -, e0, e1, -⟩ := idx_facts t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 128 + 1 * k.val = k.val; omega

/-- The weight window's block at every point is the whole weight. -/
theorem blk_w (c : Dev nD) (t : Fin cfg1.N) (k : Fin 128) (q : Fin 64) :
    (iblk1 V c 3 t : Vec Ideal S128x64 .f32) (ix2 k q) = (V c (Pipeline.arrRef spec1 3) : Cert.Spec.Arr 128 64) (ix2 k q) := by
  obtain ⟨-, -, -, -, -, -, e0, e1, -⟩ := idx_facts t
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-! ## From blocks to the array -/

/-- What point `t` writes back is block `t` of the second layer's dense part of the region's four input arrays. -/
theorem flushed_eq (c : Dev nD) (t : Fin cfg1.N) :
    (dat1 (F := Ideal) V c).flushed 4 t
      = ((cfg1.win 4).blk t).view.read (Elt Ideal)
          (Cert.Spec.hiddenScaled (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz, View.ld_unit_zero (S := S128x64) hz]
  obtain ⟨-, -, -, -, -, -, -, -, e0, e1⟩ := idx_facts t
  have hN : cfg1.N = 10 := N_1
  have ht : t.val < 10 := hN ▸ t.isLt
  funext j
  obtain ⟨p, q, rfl⟩ : ∃ (p : Fin 5000) (q : Fin 64), j = ix2 p q := ⟨j 0, j 1, eq_ix2 j⟩
  have hr : 5000 * t.val + p.val < 50000 := by have := p.isLt; omega
  have hemb : ((cfg1.win 4).blk t).view.emb (ix2 p q) = (ix2 (⟨5000 * t.val + p.val, hr⟩ : Fin 50000) q : S50000x64.Idx) := by
    funext a; apply Fin.ext
    match a with
    | ⟨0, _⟩ => show win1_4.index t (0 : Fin 2) * 5000 + 1 * p.val = 5000 * t.val + p.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (iblk1 V c 1 t) (ix2 p q)
      = Cert.Spec.hiddenScaled (V c (Pipeline.arrRef spec1 0)) (V c (Pipeline.arrRef spec1 1)) (V c (Pipeline.arrRef spec1 2)) (V c (Pipeline.arrRef spec1 3)) (((cfg1.win 4).blk t).view.emb (ix2 p q))
  rw [hemb]
  refine (pay_apply (iblk1 V c 0 t) (iblk1 V c 1 t) (iblk1 V c 2 t) (iblk1 V c 3 t) (iblk1 V c 1 t) p q).trans ?_
  show _ = Cert.Spec.hiddenScaledAt _ _ _ _ (⟨5000 * t.val + p.val, hr⟩ : Fin 50000) q
  unfold Cert.Spec.hiddenScaledAt
  refine congrArg₂ (· * ·) (Finset.sum_congr rfl fun k _ => congrArg₂ (· * ·) ?_ ?_) ?_
  · refine congrArg (max · 0) (congrArg₂ (· + ·) (congrArg₂ (· * ·) ?_ ?_) ?_)
    · exact blk_a V c t p k _ rfl
    · exact blk_d V c t p _ rfl
    · exact blk_b V c t k
  · exact blk_w V c t k q
  · exact blk_d V c t p _ rfl

/-- An index of the output array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- Row `r` of the output lies in the block of point `r / 5000`: the ten blocks cover the array. -/
theorem cover (i : S50000x64.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 64 := (i 1).isLt
  let t : Fin cfg1.N := ⟨(i 0).val / 5000, by rw [hN]; omega⟩
  obtain ⟨-, -, -, -, -, -, -, -, e0, e1⟩ := idx_facts t
  have e0' : win1_4.index t (0 : Fin 2) = (i 0).val / 5000 := e0
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The second region leaves, in its output array, the second layer's dense part of its four input arrays as it found them. -/
theorem hidden_value (c : Dev nD) :
    (dat1 (F := Ideal) V c).arrAt 4 cfg1.N
      = Cert.Spec.hiddenScaled (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_eq V c t) cover

end Cert.KernelIdeal.RegionHidden
end
-- ==== Proof.RegionLogSoftmax.lean ====
/-
  The third region of the idealized kernel, read as one function of whole arrays.

  Each of its ten points takes a block of 5000 rows of the aggregate (64 lanes), the same 5000 rows of the column of
  inverse square-root degrees, and the whole bias row. On that block it forms the logits z = aggregate · column + bias,
  takes each row's maximum m over the 64 lanes starting from minus infinity, and writes (z - m) - log (Σ exp (z - m)),
  the sum again over the row's 64 lanes.

  First half: that arithmetic at one entry (p, q) of a block, as the row-wise log-softmax of the block's row p.
  Second half: block t holds rows 5000·t … 5000·t + 4999 of the arrays, the ten blocks tile the 50000 rows, so the
  output array ends holding the row-wise log-softmax of the logits of the three arrays as the region found them.
-/
import proofs.«130009_j68779606278426_2_alg».proof.Proof.Spec
import proofs.«130009_j68779606278426_2_alg».proof.Proof.LibKeepdims
import proofs.«130009_j68779606278426_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLogSoftmax

open Idealize.ShloMosaic Idealize.ShloMosaic.TcCoe Idealize.SL.Sem Idealize.ShloMosaic.Pipeline
open Idealize.ShloMosaic.ValueIdx
open Cert.KernelIdeal Cert.KernelIdeal.Gen
open scoped BigOperators

/-! ## The body's arithmetic on one block, read at an entry -/

/-- The block's logits as a vector: the aggregate block with row p scaled by the column's entry of row p, plus the bias row. -/
def zvec (x0 : Vec Ideal S5000x64 .f32) (x1 : Vec Ideal S5000x1 .f32) (x2 : Vec Ideal S1x64 .f32) : FVec Ideal S5000x64 .f32 :=
  addf (mulf (shapeCast S5000x64 x0 shapeCasts_S5000x64_S5000x64)
      (broadcastTo S5000x64 (shapeCast S5000x1 x1 shapeCasts_S5000x1_S5000x1) broadcasts_S5000x1_S5000x64))
    (broadcastTo S5000x64 (shapeCast S1x64 x2 shapeCasts_S1x64_S1x64) broadcasts_S1x64_S5000x64)

theorem zvec_apply (x0 : Vec Ideal S5000x64 .f32) (x1 : Vec Ideal S5000x1 .f32) (x2 : Vec Ideal S1x64 .f32) (p : Fin 5000) (q : Fin 64) :
    zvec x0 x1 x2 (ix2 p q) = x0 (ix2 p q) * x1 (ix2 p (0 : Fin 1)) + x2 (ix2 (0 : Fin 1) q) := by
  unfold zvec
  rw [addf_apply, mulf_apply, shapeCast_self, shapeCast_self, shapeCast_self,
    broadcastTo_a1_ab_apply, broadcastTo_1b_ab_apply]

/-- Inserting lane c into the row index p of the reduced shape gives the entry (p, c). -/
theorem lift_ix1 (p : Fin 5000) (c : Fin 64) :
    reduces_S5000x64_S5000.lift (ix1 p) c = ix2 p c := by
  funext a; apply Fin.ext
  match a with
  | ⟨0, _⟩ => rfl
  | ⟨1, _⟩ => rfl

/-- The word the maximum starts from is minus infinity. -/
theorem negInf_word : (FloatOps.ofBits (F := Ideal) .f32 0xFF800000#32 : EReal) = ⊥ := by
  show Ideal.ofBits .f32 0xFF800000#32 = ⊥
  simp [Ideal.ofBits, Ideal.ieee]

/-- Each row's maximum over its 64 lanes, repeated along the row. -/
def mvec (z : FVec Ideal S5000x64 .f32) : FVec Ideal S5000x64 .f32 :=
  broadcastTo S5000x64 (shapeCast S5000x1
    (multiReduction .maximumf [1] S5000 z 0xFF800000#32 reduces_S5000x64_S5000 (.inl rfl) rfl) shapeCasts_S5000_S5000x1)
    broadcasts_S5000x1_S5000x64

theorem mvec_apply (z : FVec Ideal S5000x64 .f32) (p : Fin 5000) (q : Fin 64) :
    mvec z (ix2 p q) = (Finset.univ : Finset (Fin 64)).fold max (⊥ : EReal) (fun c => z (ix2 p c)) := by
  unfold mvec
  rw [broadcastTo_a1_ab_apply, shapeCast_a_a1_apply]
  refine (Ideal.multiReduction_maximumf_single z 0xFF800000#32 reduces_S5000x64_S5000 (.inl rfl) rfl (ix1 p)).trans ?_
  rw [negInf_word]
  have e : (fun c : Fin 64 => z (reduces_S5000x64_S5000.lift (ix1 p) c)) = fun c => z (ix2 p c) :=
    funext fun c => congrArg z (lift_ix1 p c)
  exact congrArg (fun f : Fin 64 → EReal => (Finset.univ : Finset (Fin 64)).fold max (⊥ : EReal) f) e

/-- The logarithm of each row's sum over its 64 lanes, repeated along the row. -/
def lsvec (e : FVec Ideal S5000x64 .f32) : FVec Ideal S5000x64 .f32 :=
  broadcastTo S5000x64 (log (shapeCast S5000x1
    (multiReduction .add [1] S5000 e 0x00000000#32 reduces_S5000x64_S5000 (.inl rfl) rfl) shapeCasts_S5000_S5000x1))
    broadcasts_S5000x1_S5000x64

theorem lsvec_apply (e : FVec Ideal S5000x64 .f32) (p : Fin 5000) (q : Fin 64) :
    lsvec e (ix2 p q) = Ideal.log (∑ k : Fin 64, e (ix2 p k)) := by
  unfold lsvec
  rw [broadcastTo_a1_ab_apply]
  show Ideal.log (shapeCast S5000x1 (multiReduction .add [1] S5000 e 0x00000000#32 reduces_S5000x64_S5000 (.inl rfl) rfl) shapeCasts_S5000_S5000x1 (ix2 p (0 : Fin 1))) = _
  rw [shapeCast_a_a1_apply]
  refine congrArg Ideal.log ?_
  refine (Ideal.multiReduction_add_single e 0x00000000#32 reduces_S5000x64_S5000 (.inl rfl) rfl (ix1 p)).trans ?_
  exact Finset.sum_congr rfl fun k _ => congrArg e (lift_ix1 p k)

/-- The body's arithmetic is the composition of the three pieces: the logits less their row maximum, less the logarithm
    of the row sum of the exponentials of that difference. -/
theorem pay_eq (x0 : Vec Ideal S5000x64 .f32) (x1 : Vec Ideal S5000x1 .f32) (x2 : Vec Ideal S1x64 .f32) :
    k2_pay1 (F := Ideal) x0 x1 x2
      = subf (subf (zvec x0 x1 x2) (mvec (zvec x0 x1 x2))) (lsvec (exp (subf (zvec x0 x1 x2) (mvec (zvec x0 x1 x2))))) := rfl

theorem exp_apply (v : FVec Ideal S5000x64 .f32) (i : S5000x64.Idx) : (exp v) i = Ideal.exp (v i) := rfl

/-- The block's logit at row p, lane k. -/
def zAt (x0 : Vec Ideal S5000x64 .f32) (x1 : Vec Ideal S5000x1 .f32) (x2 : Vec Ideal S1x64 .f32) (p : Fin 5000) (k : Fin 64) : EReal :=
  x0 (ix2 p k) * x1 (ix2 p (0 : Fin 1)) + x2 (ix2 (0 : Fin 1) k)

/-- The body's result at entry (p, q) of the block: the log-softmax of the block's row p at lane q. -/
theorem pay_apply (x0 : Vec Ideal S5000x64 .f32) (x1 : Vec Ideal S5000x1 .f32) (x2 : Vec Ideal S1x64 .f32) (p : Fin 5000) (q : Fin 64) :
    k2_pay1 (F := Ideal) x0 x1 x2 (ix2 p q)
      = (zAt x0 x1 x2 p q - (Finset.univ : Finset (Fin 64)).fold max (⊥ : EReal) (fun c => zAt x0 x1 x2 p c))
        - Ideal.log (∑ k : Fin 64, Ideal.exp (zAt x0 x1 x2 p k - (Finset.univ : Finset (Fin 64)).fold max (⊥ : EReal) (fun c => zAt x0 x1 x2 p c))) := by
  rw [pay_eq, subf_apply, subf_apply, lsvec_apply, mvec_apply]
  simp only [exp_apply, subf_apply, mvec_apply, zvec_apply]
  rfl

/-- When the block's row p holds row r of the arrays, the body's result at (p, q) is the specification's log-softmax of
    the logits at (r, q). -/
theorem point_eq (A : Cert.Spec.Arr 50000 64) (D : Cert.Spec.Arr 50000 1) (B : Cert.Spec.Arr 1 64)
    (x0 : Vec Ideal S5000x64 .f32) (x1 : Vec Ideal S5000x1 .f32) (x2 : Vec Ideal S1x64 .f32)
    (r : Fin 50000) (p : Fin 5000) (q : Fin 64)
    (h0 : ∀ k : Fin 64, x0 (ix2 p k) = A (ix2 r k))
    (h1 : x1 (ix2 p (0 : Fin 1)) = D (ix2 r (0 : Fin 1)))
    (h2 : ∀ k : Fin 64, x2 (ix2 (0 : Fin 1) k) = B (ix2 (0 : Fin 1) k)) :
    k2_pay1 (F := Ideal) x0 x1 x2 (ix2 p q) = Cert.Spec.logSoftmaxAt (Cert.Spec.logits A D B) r q := by
  have hz : ∀ k : Fin 64, zAt x0 x1 x2 p k = Cert.Spec.logits A D B (ix2 r k) := fun k => by
    unfold zAt
    rw [h0, h1, h2]
    rfl
  rw [pay_apply]
  simp only [hz]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: windows 0, 1 and 3 take block t along the rows, window 2 is whole. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed_eq (c : Dev nD) (t : Fin cfg2.N) :
    (dat2 (F := Ideal) V c).flushed 3 t = ((cfg2.win 3).blk t).view.read (Elt Ideal)
      (Cert.Spec.logSoftmaxRows (Cert.Spec.logits (V c (Pipeline.arrRef spec2 0)) (V c (Pipeline.arrRef spec2 1)) (V c (Pipeline.arrRef spec2 2)))) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts t
  funext j
  have hj : (j : S5000x64.Idx) = ix2 (j 0) (j 1) := eq_ix2 (n0 := 5000) (n1 := 64) j
  have hcol : (((cfg2.win 3).blk t).view.emb j) (1 : Fin 2) = j 1 :=
    Fin.ext (by show win2_3.index t (1 : Fin 2) * 64 + 1 * (j 1).val = (j 1).val; rw [e7]; omega)
  have h0 : ∀ k : Fin 64, (iblk2 V c 0 t : Vec Ideal S5000x64 .f32) (ix2 (j 0) k)
      = (V c (Pipeline.arrRef spec2 0) : Cert.Spec.Arr 50000 64) (ix2 ((((cfg2.win 3).blk t).view.emb j) (0 : Fin 2)) k) := fun k => by
    show V c (Pipeline.arrRef spec2 0) (((cfg2.win 0).blk t).view.emb (ix2 (j 0) k)) = _
    refine congrArg (V c (Pipeline.arrRef spec2 0)) (funext fun a => Fin.ext ?_)
    match a with
    | ⟨0, _⟩ => show win2_0.index t (0 : Fin 2) * 5000 + 1 * (j 0).val = win2_3.index t (0 : Fin 2) * 5000 + 1 * (j 0).val; rw [e0, e6]
    | ⟨1, _⟩ => show win2_0.index t (1 : Fin 2) * 64 + 1 * k.val = k.val; rw [e1]; omega
  have h1 : (iblk2 V c 1 t : Vec Ideal S5000x1 .f32) (ix2 (j 0) (0 : Fin 1))
      = (V c (Pipeline.arrRef spec2 1) : Cert.Spec.Arr 50000 1) (ix2 ((((cfg2.win 3).blk t).view.emb j) (0 : Fin 2)) (0 : Fin 1)) := by
    show V c (Pipeline.arrRef spec2 1) (((cfg2.win 1).blk t).view.emb (ix2 (j 0) (0 : Fin 1))) = _
    refine congrArg (V c (Pipeline.arrRef spec2 1)) (funext fun a => Fin.ext ?_)
    match a with
    | ⟨0, _⟩ => show win2_1.index t (0 : Fin 2) * 5000 + 1 * (j 0).val = win2_3.index t (0 : Fin 2) * 5000 + 1 * (j 0).val; rw [e2, e6]
    | ⟨1, _⟩ => show win2_1.index t (1 : Fin 2) * 1 + 1 * 0 = 0; rw [e3]
  have h2 : ∀ k : Fin 64, (iblk2 V c 2 t : Vec Ideal S1x64 .f32) (ix2 (0 : Fin 1) k)
      = (V c (Pipeline.arrRef spec2 2) : Cert.Spec.Arr 1 64) (ix2 (0 : Fin 1) k) := fun k => by
    show V c (Pipeline.arrRef spec2 2) (((cfg2.win 2).blk t).view.emb (ix2 (0 : Fin 1) k)) = _
    refine congrArg (V c (Pipeline.arrRef spec2 2)) (funext fun a => Fin.ext ?_)
    match a with
    | ⟨0, _⟩ => show win2_2.index t (0 : Fin 2) * 1 + 1 * 0 = 0; rw [e4]
    | ⟨1, _⟩ => show win2_2.index t (1 : Fin 2) * 64 + 1 * k.val = k.val; rw [e5]; omega
  refine ((congrArg (k2_pay1 (F := Ideal) (iblk2 V c 0 t) (iblk2 V c 1 t) (iblk2 V c 2 t)) hj).trans
    (point_eq (V c (Pipeline.arrRef spec2 0)) (V c (Pipeline.arrRef spec2 1)) (V c (Pipeline.arrRef spec2 2))
      (iblk2 V c 0 t) (iblk2 V c 1 t) (iblk2 V c 2 t) ((((cfg2.win 3).blk t).view.emb j) (0 : Fin 2)) (j 0) (j 1) h0 h1 h2)).trans ?_
  exact congrArg (Cert.Spec.logSoftmaxAt (Cert.Spec.logits (V c (Pipeline.arrRef spec2 0)) (V c (Pipeline.arrRef spec2 1)) (V c (Pipeline.arrRef spec2 2)))
    ((((cfg2.win 3).blk t).view.emb j) (0 : Fin 2))) hcol.symm

/-- An index of the array is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Every row r of the array lies in the block of the point r / 5000: the ten blocks of 5000 rows tile the 50000 rows. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨_, _, _, _, _, _, e6, e7⟩ := idx_facts (⟨(i 0).val / 5000, ht⟩ : Fin cfg2.N)
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e7]
    omega

/-- THE VALUE OF THE REGION: after its ten points the output array holds the row-wise log-softmax of the logits of the
    three input arrays as the region found them. -/
theorem logSoftmax_value (c : Dev nD) :
    (dat2 (F := Ideal) V c).arrAt 3 cfg2.N
      = Cert.Spec.logSoftmaxRows (Cert.Spec.logits (V c (Pipeline.arrRef spec2 0)) (V c (Pipeline.arrRef spec2 1)) (V c (Pipeline.arrRef spec2 2))) :=
  (dat2 (F := Ideal) V c).arrAt_eq_of_cover 3
    (Cert.Spec.logSoftmaxRows (Cert.Spec.logits (V c (Pipeline.arrRef spec2 0)) (V c (Pipeline.arrRef spec2 1)) (V c (Pipeline.arrRef spec2 2))))
    (fun t _ => flushed_eq V c t) cover

end Cert.KernelIdeal.RegionLogSoftmax
end
-- ==== Proof.KernelValue.lean ====
/-
  What the idealized kernel's result array holds, as one term of the argument arrays.

  The buffer contents at the eight segment boundaries of @main are a fold: a stretch of host operations applies its
  operations, a region leaves its output array at the whole-array function of its input arrays (the three region values:
  the scaled product, the hidden layer's scaled product, the row-wise log-softmax of the logits) and every other buffer
  as it was. Walking the fold back from the result buffer: the result is the log-softmax of the logits of the second
  aggregate; each aggregate is the segment sum, at the destination rows, of the source rows gathered out of the
  previous region's output; the column of inverse square-root degrees, the two bias rows, the source and destination
  row numbers are computed once by the first stretches and never overwritten.
-/
import proofs.«130009_j68779606278426_2_alg».proof.Proof.Gen.KernelIdeal.Frame
import proofs.«130009_j68779606278426_2_alg».proof.Proof.Spec
import proofs.«130009_j68779606278426_2_alg».proof.Proof.RegionLinear
import proofs.«130009_j68779606278426_2_alg».proof.Proof.RegionHidden
import proofs.«130009_j68779606278426_2_alg».proof.Proof.RegionLogSoftmax
import Idealize.ShloMosaic.Lib.StableHlo.Run
import Idealize.ShloMosaic.PureOps.Ideal

set_option maxRecDepth 16384

noncomputable section

namespace Cert.KernelIdeal.Out

open Idealize.ShloMosaic Idealize.ShloMosaic.TcCoe Idealize.SL.Sem Idealize.ShloMosaic.StableHlo
open Idealize.ShloMosaic.Pipeline (Dat)
open Cert.KernelIdeal Cert.KernelIdeal.Gen

/-! ## The host stretches as functions -/

/-- The source row numbers: the first row of the edge list, then every node once (the self loops). -/
def srcRows (x1 : IVec S2x800000 32) : IVec S850000 32 :=
  concatenate S850000 0
    [⟨S800000, shapeCast S800000 (extractStridedSlice S1x800000 ![0, 0] x1 slices_S2x800000_S1x800000_0_0) shapeCasts_S1x800000_S800000⟩,
      ⟨S50000, iotaInDim S50000 32 0⟩] concatenates_S800000_S50000_S850000_d0

/-- The destination row numbers: the second row of the edge list, then every node once. -/
def dstRows (x1 : IVec S2x800000 32) : IVec S850000 32 :=
  concatenate S850000 0
    [⟨S800000, shapeCast S800000 (extractStridedSlice S1x800000 ![1, 0] x1 slices_S2x800000_S1x800000_1_0) shapeCasts_S1x800000_S800000⟩,
      ⟨S50000, iotaInDim S50000 32 0⟩] concatenates_S800000_S50000_S850000_d0

/-- The degrees: at each node the number of destination rows that name it. -/
def degrees (x1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dstRows x1))
    (broadcastInDim S850000 ![] bcast_S_S850000 (constant (F := Ideal) S_ .f32 0x3F800000#32))

/-- The inverse square-root degrees (zero where the degree is not positive). -/
def dinv (x1 : IVec S2x800000 32) : FVec Ideal S50000 .f32 :=
  select (cmpf (F := Ideal) .ogt (degrees x1) (broadcastInDim S50000 ![] bcast_S_S50000 (constant (F := Ideal) S_ .f32 0x00000000#32)))
    (Host.rsqrt (F := Ideal) (degrees x1))
    (broadcastInDim S50000 ![] bcast_S_S50000 (id (constant (F := Ideal) S_ .f32 0x00000000#32)))

/-- The same as a column. -/
def dinvCol (x1 : IVec S2x800000 32) : FVec Ideal S50000x1 .f32 :=
  shapeCast S50000x1 (dinv x1) shapeCasts_S50000_S50000x1

/-- The source rows as a column of gather indices: a negative row number wraps once. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The first layer's aggregate: the gathered source rows summed at the destination rows. -/
def aggregate128 (y : FVec Ideal S50000x128 .bf16) (s d : IVec S850000 32) :
    FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (extf (F := Ideal) .f32 (Host.gather gather_S50000x128_S850000x1_S850000x128_1_0_n_n_0_1_1128 y (wrapCol s)) bitsLt_bf16_f32)

/-- The second layer's aggregate. -/
def aggregate64 (y : FVec Ideal S50000x64 .bf16) (s d : IVec S850000 32) :
    FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (extf (F := Ideal) .f32 (Host.gather gather_S50000x64_S850000x1_S850000x64_1_0_n_n_0_1_164 y (wrapCol s)) bitsLt_bf16_f32)

/-- The whole kernel as one function of its six arguments. -/
def kernelValue (x0 : FVec Ideal S50000x128 .f32) (x1 : IVec S2x800000 32)
    (x2 : FVec Ideal S128x128 .f32) (x3 : FVec Ideal S128 .f32)
    (x4 : FVec Ideal S128x64 .f32) (x5 : FVec Ideal S64 .f32) :
    FVec Ideal S50000x64 .f32 :=
  Cert.Spec.logSoftmaxRows (Cert.Spec.logits
    (aggregate64 (Cert.Spec.hiddenScaled
        (aggregate128 (Cert.Spec.scaledProduct x0 x2 (dinvCol x1)) (srcRows x1) (dstRows x1))
        (dinvCol x1) (shapeCast S1x128 x3 shapeCasts_S128_S1x128) x4) (srcRows x1) (dstRows x1))
    (dinvCol x1) (shapeCast S1x64 x5 shapeCasts_S64_S1x64))

variable (m : (ℓ : Loc nD τ sig) → Buf (Elt Ideal) ℓ) (ρ : Dev nD → PrngReg) (c : Dev nD)

/-! ## Region 0's entry -/

theorem src3 : (W3 m ρ c (Proc.devRef .tc main_v5) : IVec S850000 32) = srcRows (m ((c : Thread nD τ).loc main_arg1)) := by
  show StableHlo.after hostOps0_2 (StableHlo.after hostOps0_1 (StableHlo.after hostOps0 (W0 m ρ c))) (Proc.devRef .tc main_v5) = _
  after_results
  rfl

theorem dst3 : (W3 m ρ c (Proc.devRef .tc main_v6) : IVec S850000 32) = dstRows (m ((c : Thread nD τ).loc main_arg1)) := by
  show StableHlo.after hostOps0_2 (StableHlo.after hostOps0_1 (StableHlo.after hostOps0 (W0 m ρ c))) (Proc.devRef .tc main_v6) = _
  after_results
  rfl

/-! The inverse square-root degrees, stretch by stretch (the outlined `where` moves its operands through typed references:
    those transports are the identity). -/

theorem ofBuf_v12 (h1 h2 h3) (v : main_v12.ty.Contents (Elt Ideal)) :
    (TRef.of (T := ⟨S50000, .i1⟩) main_v12 h1 h2 h3).ofBuf v = v := rfl
theorem ofBuf_v13 (h1 h2 h3) (v : main_v13.ty.Contents (Elt Ideal)) :
    (TRef.of (T := ⟨S50000, .f32⟩) main_v13 h1 h2 h3).ofBuf v = v := rfl
theorem ofBuf_cst2 (h1 h2 h3) (v : main_cst_2.ty.Contents (Elt Ideal)) :
    (TRef.of (T := ⟨S_, .f32⟩) main_cst_2 h1 h2 h3).ofBuf v = v := rfl
theorem ofBuf_c0v0 (h1 h2 h3) (v : main_call0_v0.ty.Contents (Elt Ideal)) :
    (TRef.of (T := ⟨S_, .f32⟩) main_call0_v0 h1 h2 h3).ofBuf v = v := rfl
theorem toBuf_c0v0 (h1 h2 h3) (v : (⟨S_, .f32⟩ : BufTy).Contents (Elt Ideal)) :
    (TRef.of (T := ⟨S_, .f32⟩) main_call0_v0 h1 h2 h3).toBuf v = v := rfl
theorem ofBuf_c0v1 (h1 h2 h3) (v : main_call0_v1.ty.Contents (Elt Ideal)) :
    (TRef.of (T := ⟨S50000, .f32⟩) main_call0_v1 h1 h2 h3).ofBuf v = v := rfl
theorem toBuf_c0v1 (h1 h2 h3) (v : (⟨S50000, .f32⟩ : BufTy).Contents (Elt Ideal)) :
    (TRef.of (T := ⟨S50000, .f32⟩) main_call0_v1 h1 h2 h3).toBuf v = v := rfl
theorem toBuf_v14 (h1 h2 h3) (v : (⟨S50000, .f32⟩ : BufTy).Contents (Elt Ideal)) :
    (TRef.of (T := ⟨S50000, .f32⟩) main_v14 h1 h2 h3).toBuf v = v := rfl

theorem whereStage (V1 : Valuation τ sig (Elt Ideal)) :
    (StableHlo.after hostOps0_1 V1 (Proc.devRef .tc main_v14) : FVec Ideal S50000 .f32)
      = select (V1 (Proc.devRef .tc main_v12)) (V1 (Proc.devRef .tc main_v13))
          (broadcastInDim S50000 ![] bcast_S_S50000 (id (V1 (Proc.devRef .tc main_cst_2)))) := by
  after_results
  simp only [ofBuf_v12, ofBuf_v13, ofBuf_cst2, ofBuf_c0v0, toBuf_c0v0, ofBuf_c0v1, toBuf_c0v1, toBuf_v14]

theorem columnStage (V2 : Valuation τ sig (Elt Ideal)) :
    (StableHlo.after hostOps0_2 V2 (Proc.devRef .tc main_v15) : FVec Ideal S50000x1 .f32)
      = shapeCast S50000x1 (V2 (Proc.devRef .tc main_v14)) shapeCasts_S50000_S50000x1 := by
  after_results
  rfl

theorem cmp1 : (W1 m ρ c (Proc.devRef .tc main_v12) : IVec S50000 1)
    = cmpf (F := Ideal) .ogt (degrees (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results
  unfold degrees dstRows
  rfl

theorem rsqrt1 : (W1 m ρ c (Proc.devRef .tc main_v13) : FVec Ideal S50000 .f32) = Host.rsqrt (F := Ideal) (degrees (m ((c : Thread nD τ).loc main_arg1))) := by
  show StableHlo.after hostOps0 (W0 m ρ c) (Proc.devRef .tc main_v13) = _
  after_results
  unfold degrees dstRows
  rfl

theorem zero1 : (W1 m ρ c (Proc.devRef .tc main_cst_2) : FVec Ideal S_ .f32) = constant (F := Ideal) S_ .f32 0x00000000#32 := by
  show StableHlo.after hostOps0 (W0 m ρ c) (Proc.devRef .tc main_cst_2) = _
  after_results

theorem dinv2 : (W2 m ρ c (Proc.devRef .tc main_v14) : FVec Ideal S50000 .f32) = dinv (m ((c : Thread nD τ).loc main_arg1)) := by
  show StableHlo.after hostOps0_1 (W1 m ρ c) (Proc.devRef .tc main_v14) = _
  rw [whereStage (W1 m ρ c), cmp1, rsqrt1, zero1]
  rfl

theorem dcol3 : (W3 m ρ c (Proc.devRef .tc main_v15) : FVec Ideal S50000x1 .f32) = dinvCol (m ((c : Thread nD τ).loc main_arg1)) := by
  show StableHlo.after hostOps0_2 (W2 m ρ c) (Proc.devRef .tc main_v15) = _
  rw [columnStage (W2 m ρ c), dinv2]
  rfl

theorem biasA3 : (W3 m ρ c (Proc.devRef .tc main_v16) : FVec Ideal S1x128 .f32)
    = shapeCast S1x128 (m ((c : Thread nD τ).loc main_arg3)) shapeCasts_S128_S1x128 := by
  show StableHlo.after hostOps0_2 (StableHlo.after hostOps0_1 (StableHlo.after hostOps0 (W0 m ρ c))) (Proc.devRef .tc main_v16) = _
  after_results
  rfl

theorem biasB3 : (W3 m ρ c (Proc.devRef .tc main_v17) : FVec Ideal S1x64 .f32)
    = shapeCast S1x64 (m ((c : Thread nD τ).loc main_arg5)) shapeCasts_S64_S1x64 := by
  show StableHlo.after hostOps0_2 (StableHlo.after hostOps0_1 (StableHlo.after hostOps0 (W0 m ρ c))) (Proc.devRef .tc main_v17) = _
  after_results
  rfl

theorem arg0_3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem arg2_3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem arg4_3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

/-! ## Region 0's exit: its output at the scaled product, every other buffer as entered -/

theorem lin4 : (W4 m ρ c (Proc.devRef .tc main_v18) : FVec Ideal S50000x128 .bf16)
    = Cert.Spec.scaledProduct (m ((c : Thread nD τ).loc main_arg0)) (m ((c : Thread nD τ).loc main_arg2)) (dinvCol (m ((c : Thread nD τ).loc main_arg1))) := by
  refine (W4_arr m ρ c 3).trans ((Cert.KernelIdeal.RegionLinear.linear_value (V3 m ρ) c).trans ?_)
  show Cert.Spec.scaledProduct (W3 m ρ c (Proc.devRef .tc main_arg0)) (W3 m ρ c (Proc.devRef .tc main_arg2)) (W3 m ρ c (Proc.devRef .tc main_v15)) = _
  rw [arg0_3, arg2_3, dcol3]

theorem src4 : (W4 m ρ c (Proc.devRef .tc main_v5) : IVec S850000 32) = srcRows (m ((c : Thread nD τ).loc main_arg1)) :=
  (W4_of_ne m ρ c main_v5 (by decide)).trans (src3 m ρ c)
theorem dst4 : (W4 m ρ c (Proc.devRef .tc main_v6) : IVec S850000 32) = dstRows (m ((c : Thread nD τ).loc main_arg1)) :=
  (W4_of_ne m ρ c main_v6 (by decide)).trans (dst3 m ρ c)
theorem biasA4 : (W4 m ρ c (Proc.devRef .tc main_v16) : FVec Ideal S1x128 .f32) = shapeCast S1x128 (m ((c : Thread nD τ).loc main_arg3)) shapeCasts_S128_S1x128 :=
  (W4_of_ne m ρ c main_v16 (by decide)).trans (biasA3 m ρ c)
theorem biasB4 : (W4 m ρ c (Proc.devRef .tc main_v17) : FVec Ideal S1x64 .f32) = shapeCast S1x64 (m ((c : Thread nD τ).loc main_arg5)) shapeCasts_S64_S1x64 :=
  (W4_of_ne m ρ c main_v17 (by decide)).trans (biasB3 m ρ c)
theorem arg4_4 : (W4 m ρ c (Proc.devRef .tc main_arg4) : FVec Ideal S128x64 .f32) = (m ((c : Thread nD τ).loc main_arg4)) :=
  (W4_of_ne m ρ c main_arg4 (by decide)).trans (arg4_3 m ρ c)
theorem dcol4 : (W4 m ρ c (Proc.devRef .tc main_v15) : FVec Ideal S50000x1 .f32) = dinvCol (m ((c : Thread nD τ).loc main_arg1)) :=
  ((W4_arr m ρ c 2).trans (((dat0 (V3 m ρ) c).arrAt_in 2 rfl _).trans (A_eq0 (V3 m ρ) c 2))).trans (dcol3 m ρ c)

/-! ## After the first aggregation stretch -/

theorem agg5 : (W5 m ρ c (Proc.devRef .tc main_v29) : FVec Ideal S50000x128 .f32)
    = aggregate128 (Cert.Spec.scaledProduct (m ((c : Thread nD τ).loc main_arg0)) (m ((c : Thread nD τ).loc main_arg2)) (dinvCol (m ((c : Thread nD τ).loc main_arg1)))) (srcRows (m ((c : Thread nD τ).loc main_arg1))) (dstRows (m ((c : Thread nD τ).loc main_arg1))) := by
  have h : (W5 m ρ c (Proc.devRef .tc main_v29) : FVec Ideal S50000x128 .f32)
      = aggregate128 (W4 m ρ c (Proc.devRef .tc main_v18)) (W4 m ρ c (Proc.devRef .tc main_v5)) (W4 m ρ c (Proc.devRef .tc main_v6)) := by
    show StableHlo.after hostOps1 (W4 m ρ c) (Proc.devRef .tc main_v29) = _
    after_results
    rfl
  rw [h, lin4, src4, dst4]

theorem src5 : (W5 m ρ c (Proc.devRef .tc main_v5) : IVec S850000 32) = srcRows (m ((c : Thread nD τ).loc main_arg1)) := by
  have h : W5 m ρ c (Proc.devRef .tc main_v5) = W4 m ρ c (Proc.devRef .tc main_v5) := by
    show StableHlo.after hostOps1 (W4 m ρ c) (Proc.devRef .tc main_v5) = _
    after_results
  exact h.trans (src4 m ρ c)
theorem dst5 : (W5 m ρ c (Proc.devRef .tc main_v6) : IVec S850000 32) = dstRows (m ((c : Thread nD τ).loc main_arg1)) := by
  have h : W5 m ρ c (Proc.devRef .tc main_v6) = W4 m ρ c (Proc.devRef .tc main_v6) := by
    show StableHlo.after hostOps1 (W4 m ρ c) (Proc.devRef .tc main_v6) = _
    after_results
  exact h.trans (dst4 m ρ c)
theorem dcol5 : (W5 m ρ c (Proc.devRef .tc main_v15) : FVec Ideal S50000x1 .f32) = dinvCol (m ((c : Thread nD τ).loc main_arg1)) := by
  have h : W5 m ρ c (Proc.devRef .tc main_v15) = W4 m ρ c (Proc.devRef .tc main_v15) := by
    show StableHlo.after hostOps1 (W4 m ρ c) (Proc.devRef .tc main_v15) = _
    after_results
  exact h.trans (dcol4 m ρ c)
theorem biasA5 : (W5 m ρ c (Proc.devRef .tc main_v16) : FVec Ideal S1x128 .f32) = shapeCast S1x128 (m ((c : Thread nD τ).loc main_arg3)) shapeCasts_S128_S1x128 := by
  have h : W5 m ρ c (Proc.devRef .tc main_v16) = W4 m ρ c (Proc.devRef .tc main_v16) := by
    show StableHlo.after hostOps1 (W4 m ρ c) (Proc.devRef .tc main_v16) = _
    after_results
  exact h.trans (biasA4 m ρ c)
theorem biasB5 : (W5 m ρ c (Proc.devRef .tc main_v17) : FVec Ideal S1x64 .f32) = shapeCast S1x64 (m ((c : Thread nD τ).loc main_arg5)) shapeCasts_S64_S1x64 := by
  have h : W5 m ρ c (Proc.devRef .tc main_v17) = W4 m ρ c (Proc.devRef .tc main_v17) := by
    show StableHlo.after hostOps1 (W4 m ρ c) (Proc.devRef .tc main_v17) = _
    after_results
  exact h.trans (biasB4 m ρ c)
theorem arg4_5 : (W5 m ρ c (Proc.devRef .tc main_arg4) : FVec Ideal S128x64 .f32) = (m ((c : Thread nD τ).loc main_arg4)) := by
  have h : W5 m ρ c (Proc.devRef .tc main_arg4) = W4 m ρ c (Proc.devRef .tc main_arg4) := by
    show StableHlo.after hostOps1 (W4 m ρ c) (Proc.devRef .tc main_arg4) = _
    after_results
  exact h.trans (arg4_4 m ρ c)

/-! ## Region 1's exit -/

theorem hid6 : (W6 m ρ c (Proc.devRef .tc main_v30) : FVec Ideal S50000x64 .bf16)
    = Cert.Spec.hiddenScaled (aggregate128 (Cert.Spec.scaledProduct (m ((c : Thread nD τ).loc main_arg0)) (m ((c : Thread nD τ).loc main_arg2)) (dinvCol (m ((c : Thread nD τ).loc main_arg1)))) (srcRows (m ((c : Thread nD τ).loc main_arg1))) (dstRows (m ((c : Thread nD τ).loc main_arg1)))) (dinvCol (m ((c : Thread nD τ).loc main_arg1))) (shapeCast S1x128 (m ((c : Thread nD τ).loc main_arg3)) shapeCasts_S128_S1x128) (m ((c : Thread nD τ).loc main_arg4)) := by
  refine (W6_arr m ρ c 4).trans ((Cert.KernelIdeal.RegionHidden.hidden_value (V5 m ρ) c).trans ?_)
  show Cert.Spec.hiddenScaled (W5 m ρ c (Proc.devRef .tc main_v29)) (W5 m ρ c (Proc.devRef .tc main_v15)) (W5 m ρ c (Proc.devRef .tc main_v16)) (W5 m ρ c (Proc.devRef .tc main_arg4)) = _
  rw [agg5, dcol5, biasA5, arg4_5]

theorem src6 : (W6 m ρ c (Proc.devRef .tc main_v5) : IVec S850000 32) = srcRows (m ((c : Thread nD τ).loc main_arg1)) :=
  (W6_of_ne m ρ c main_v5 (by decide)).trans (src5 m ρ c)
theorem dst6 : (W6 m ρ c (Proc.devRef .tc main_v6) : IVec S850000 32) = dstRows (m ((c : Thread nD τ).loc main_arg1)) :=
  (W6_of_ne m ρ c main_v6 (by decide)).trans (dst5 m ρ c)
theorem biasB6 : (W6 m ρ c (Proc.devRef .tc main_v17) : FVec Ideal S1x64 .f32) = shapeCast S1x64 (m ((c : Thread nD τ).loc main_arg5)) shapeCasts_S64_S1x64 :=
  (W6_of_ne m ρ c main_v17 (by decide)).trans (biasB5 m ρ c)
theorem dcol6 : (W6 m ρ c (Proc.devRef .tc main_v15) : FVec Ideal S50000x1 .f32) = dinvCol (m ((c : Thread nD τ).loc main_arg1)) :=
  ((W6_arr m ρ c 1).trans (((dat1 (V5 m ρ) c).arrAt_in 1 rfl _).trans (A_eq1 (V5 m ρ) c 1))).trans (dcol5 m ρ c)

/-! ## After the second aggregation stretch -/

theorem agg7 : (W7 m ρ c (Proc.devRef .tc main_v41) : FVec Ideal S50000x64 .f32)
    = aggregate64 (Cert.Spec.hiddenScaled (aggregate128 (Cert.Spec.scaledProduct (m ((c : Thread nD τ).loc main_arg0)) (m ((c : Thread nD τ).loc main_arg2)) (dinvCol (m ((c : Thread nD τ).loc main_arg1)))) (srcRows (m ((c : Thread nD τ).loc main_arg1))) (dstRows (m ((c : Thread nD τ).loc main_arg1)))) (dinvCol (m ((c : Thread nD τ).loc main_arg1))) (shapeCast S1x128 (m ((c : Thread nD τ).loc main_arg3)) shapeCasts_S128_S1x128) (m ((c : Thread nD τ).loc main_arg4))) (srcRows (m ((c : Thread nD τ).loc main_arg1))) (dstRows (m ((c : Thread nD τ).loc main_arg1))) := by
  have h : (W7 m ρ c (Proc.devRef .tc main_v41) : FVec Ideal S50000x64 .f32)
      = aggregate64 (W6 m ρ c (Proc.devRef .tc main_v30)) (W6 m ρ c (Proc.devRef .tc main_v5)) (W6 m ρ c (Proc.devRef .tc main_v6)) := by
    show StableHlo.after hostOps2 (W6 m ρ c) (Proc.devRef .tc main_v41) = _
    after_results
    rfl
  rw [h, hid6, src6, dst6]

theorem dcol7 : (W7 m ρ c (Proc.devRef .tc main_v15) : FVec Ideal S50000x1 .f32) = dinvCol (m ((c : Thread nD τ).loc main_arg1)) := by
  have h : W7 m ρ c (Proc.devRef .tc main_v15) = W6 m ρ c (Proc.devRef .tc main_v15) := by
    show StableHlo.after hostOps2 (W6 m ρ c) (Proc.devRef .tc main_v15) = _
    after_results
  exact h.trans (dcol6 m ρ c)
theorem biasB7 : (W7 m ρ c (Proc.devRef .tc main_v17) : FVec Ideal S1x64 .f32) = shapeCast S1x64 (m ((c : Thread nD τ).loc main_arg5)) shapeCasts_S64_S1x64 := by
  have h : W7 m ρ c (Proc.devRef .tc main_v17) = W6 m ρ c (Proc.devRef .tc main_v17) := by
    show StableHlo.after hostOps2 (W6 m ρ c) (Proc.devRef .tc main_v17) = _
    after_results
  exact h.trans (biasB6 m ρ c)

/-! ## The result -/

/-- The result buffer at the last boundary is the kernel's function of the six arguments. -/
theorem out8 : (W8 m ρ c (Proc.devRef .tc main_v42) : FVec Ideal S50000x64 .f32)
    = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Cert.KernelIdeal.RegionLogSoftmax.logSoftmax_value (V7 m ρ) c).trans ?_)
  show Cert.Spec.logSoftmaxRows (Cert.Spec.logits (W7 m ρ c (Proc.devRef .tc main_v41)) (W7 m ρ c (Proc.devRef .tc main_v15)) (W7 m ρ c (Proc.devRef .tc main_v17))) = _
  rw [agg7, dcol7, biasB7]
  rfl

end Cert.KernelIdeal.Out

end
-- ==== Proof.RefStages.lean ====
/-
  The reference's 134 host operations cut into five consecutive stages (the row numbers, first dense product and inverse
  square-root degrees; the first layer and its clamp; the second set of row numbers and degrees with the second dense
  product; the second layer; the row-wise log-softmax), the fold over a concatenation of stages as the folds composed, and
  the transports through the typed references of the outlined functions' operands, which are the identity.
-/
import proofs.«130009_j68779606278426_2_alg».proof.Proof.RefRun
import proofs.«130009_j68779606278426_2_alg».proof.Proof.RefRead

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations 1 … 22 of the reference's @main. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Operations 23 … 63 of the reference's @main. -/
abbrev opsB : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v7 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 … 81 of the reference's @main. -/
abbrev opsC : List (HloOp τ sig (Elt F)) :=
  [ nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v47 main_arg4 main_v51 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v50 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Operations 82 … 119 of the reference's @main. -/
abbrev opsD : List (HloOp τ sig (Elt F)) :=
  [ nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v49 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v49 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v49 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v50 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v50 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v50 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v49 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v49 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v51 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- Operations 120 … 134 of the reference's @main. -/
abbrev opsE : List (HloOp τ sig (Elt F)) :=
  [ TRef.nullary (TRef.of (T := ⟨S_, .f32⟩) main_call3_cst) (constant S_ .f32 0xFF800000#32),
    TRef.binary (TRef.of (T := ⟨S50000x64, .f32⟩) main_v90) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v90) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v91) subf ]

theorem ops_split : ops (F := F) = opsA ++ (opsB ++ (opsC ++ (opsD ++ opsE))) := rfl

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-! ## The outlined functions move their operands through typed references: those transports are the identity -/

theorem ofBuf_main_cst_2 (h1 h2 h3) (v : main_cst_2.ty.Contents (Elt F)) :
    (TRef.of (T := ⟨S_, .f32⟩) main_cst_2 h1 h2 h3).ofBuf v = v := rfl
theorem toBuf_main_cst_2 (h1 h2 h3) (v : (⟨S_, .f32⟩ : BufTy).Contents (Elt F)) :
    (TRef.of (T := ⟨S_, .f32⟩) main_cst_2 h1 h2 h3).toBuf v = v := rfl
theorem ofBuf_main_call0_v0 (h1 h2 h3) (v : main_call0_v0.ty.Contents (Elt F)) :
    (TRef.of (T := ⟨S_, .f32⟩) main_call0_v0 h1 h2 h3).ofBuf v = v := rfl
theorem toBuf_main_call0_v0 (h1 h2 h3) (v : (⟨S_, .f32⟩ : BufTy).Contents (Elt F)) :
    (TRef.of (T := ⟨S_, .f32⟩) main_call0_v0 h1 h2 h3).toBuf v = v := rfl
theorem ofBuf_main_call0_v1 (h1 h2 h3) (v : main_call0_v1.ty.Contents (Elt F)) :
    (TRef.of (T := ⟨S50000, .f32⟩) main_call0_v1 h1 h2 h3).ofBuf v = v := rfl
theorem toBuf_main_call0_v1 (h1 h2 h3) (v : (⟨S50000, .f32⟩ : BufTy).Contents (Elt F)) :
    (TRef.of (T := ⟨S50000, .f32⟩) main_call0_v1 h1 h2 h3).toBuf v = v := rfl
theorem ofBuf_main_v13 (h1 h2 h3) (v : main_v13.ty.Contents (Elt F)) :
    (TRef.of (T := ⟨S50000, .i1⟩) main_v13 h1 h2 h3).ofBuf v = v := rfl
theorem toBuf_main_v13 (h1 h2 h3) (v : (⟨S50000, .i1⟩ : BufTy).Contents (Elt F)) :
    (TRef.of (T := ⟨S50000, .i1⟩) main_v13 h1 h2 h3).toBuf v = v := rfl
theorem ofBuf_main_v14 (h1 h2 h3) (v : main_v14.ty.Contents (Elt F)) :
    (TRef.of (T := ⟨S50000, .f32⟩) main_v14 h1 h2 h3).ofBuf v = v := rfl
theorem toBuf_main_v14 (h1 h2 h3) (v : (⟨S50000, .f32⟩ : BufTy).Contents (Elt F)) :
    (TRef.of (T := ⟨S50000, .f32⟩) main_v14 h1 h2 h3).toBuf v = v := rfl
theorem ofBuf_main_v15 (h1 h2 h3) (v : main_v15.ty.Contents (Elt F)) :
    (TRef.of (T := ⟨S50000, .f32⟩) main_v15 h1 h2 h3).ofBuf v = v := rfl
theorem toBuf_main_v15 (h1 h2 h3) (v : (⟨S50000, .f32⟩ : BufTy).Contents (Elt F)) :
    (TRef.of (T := ⟨S50000, .f32⟩) main_v15 h1 h2 h3).toBuf v = v := rfl
theorem ofBuf_main_call1_cst (h1 h2 h3) (v : main_call1_cst.ty.Contents (Elt F)) :
    (TRef.of (T := ⟨S_, .f32⟩) main_call1_cst h1 h2 h3).ofBuf v = v := rfl
theorem toBuf_main_call1_cst (h1 h2 h3) (v : (⟨S_, .f32⟩ : BufTy).Contents (Elt F)) :
    (TRef.of (T := ⟨S_, .f32⟩) main_call1_cst h1 h2 h3).toBuf v = v := rfl
theorem ofBuf_main_call1_v0 (h1 h2 h3) (v : main_call1_v0.ty.Contents (Elt F)) :
    (TRef.of (T := ⟨S50000x128, .f32⟩) main_call1_v0 h1 h2 h3).ofBuf v = v := rfl
theorem toBuf_main_call1_v0 (h1 h2 h3) (v : (⟨S50000x128, .f32⟩ : BufTy).Contents (Elt F)) :
    (TRef.of (T := ⟨S50000x128, .f32⟩) main_call1_v0 h1 h2 h3).toBuf v = v := rfl
theorem ofBuf_main_v46 (h1 h2 h3) (v : main_v46.ty.Contents (Elt F)) :
    (TRef.of (T := ⟨S50000x128, .f32⟩) main_v46 h1 h2 h3).ofBuf v = v := rfl
theorem toBuf_main_v46 (h1 h2 h3) (v : (⟨S50000x128, .f32⟩ : BufTy).Contents (Elt F)) :
    (TRef.of (T := ⟨S50000x128, .f32⟩) main_v46 h1 h2 h3).toBuf v = v := rfl
theorem ofBuf_main_v47 (h1 h2 h3) (v : main_v47.ty.Contents (Elt F)) :
    (TRef.of (T := ⟨S50000x128, .f32⟩) main_v47 h1 h2 h3).ofBuf v = v := rfl
theorem toBuf_main_v47 (h1 h2 h3) (v : (⟨S50000x128, .f32⟩ : BufTy).Contents (Elt F)) :
    (TRef.of (T := ⟨S50000x128, .f32⟩) main_v47 h1 h2 h3).toBuf v = v := rfl
theorem ofBuf_main_cst_12 (h1 h2 h3) (v : main_cst_12.ty.Contents (Elt F)) :
    (TRef.of (T := ⟨S_, .f32⟩) main_cst_12 h1 h2 h3).ofBuf v = v := rfl
theorem toBuf_main_cst_12 (h1 h2 h3) (v : (⟨S_, .f32⟩ : BufTy).Contents (Elt F)) :
    (TRef.of (T := ⟨S_, .f32⟩) main_cst_12 h1 h2 h3).toBuf v = v := rfl
theorem ofBuf_main_call2_v0 (h1 h2 h3) (v : main_call2_v0.ty.Contents (Elt F)) :
    (TRef.of (T := ⟨S_, .f32⟩) main_call2_v0 h1 h2 h3).ofBuf v = v := rfl
theorem toBuf_main_call2_v0 (h1 h2 h3) (v : (⟨S_, .f32⟩ : BufTy).Contents (Elt F)) :
    (TRef.of (T := ⟨S_, .f32⟩) main_call2_v0 h1 h2 h3).toBuf v = v := rfl
theorem ofBuf_main_call2_v1 (h1 h2 h3) (v : main_call2_v1.ty.Contents (Elt F)) :
    (TRef.of (T := ⟨S50000, .f32⟩) main_call2_v1 h1 h2 h3).ofBuf v = v := rfl
theorem toBuf_main_call2_v1 (h1 h2 h3) (v : (⟨S50000, .f32⟩ : BufTy).Contents (Elt F)) :
    (TRef.of (T := ⟨S50000, .f32⟩) main_call2_v1 h1 h2 h3).toBuf v = v := rfl
theorem ofBuf_main_v57 (h1 h2 h3) (v : main_v57.ty.Contents (Elt F)) :
    (TRef.of (T := ⟨S50000, .i1⟩) main_v57 h1 h2 h3).ofBuf v = v := rfl
theorem toBuf_main_v57 (h1 h2 h3) (v : (⟨S50000, .i1⟩ : BufTy).Contents (Elt F)) :
    (TRef.of (T := ⟨S50000, .i1⟩) main_v57 h1 h2 h3).toBuf v = v := rfl
theorem ofBuf_main_v58 (h1 h2 h3) (v : main_v58.ty.Contents (Elt F)) :
    (TRef.of (T := ⟨S50000, .f32⟩) main_v58 h1 h2 h3).ofBuf v = v := rfl
theorem toBuf_main_v58 (h1 h2 h3) (v : (⟨S50000, .f32⟩ : BufTy).Contents (Elt F)) :
    (TRef.of (T := ⟨S50000, .f32⟩) main_v58 h1 h2 h3).toBuf v = v := rfl
theorem ofBuf_main_v59 (h1 h2 h3) (v : main_v59.ty.Contents (Elt F)) :
    (TRef.of (T := ⟨S50000, .f32⟩) main_v59 h1 h2 h3).ofBuf v = v := rfl
theorem toBuf_main_v59 (h1 h2 h3) (v : (⟨S50000, .f32⟩ : BufTy).Contents (Elt F)) :
    (TRef.of (T := ⟨S50000, .f32⟩) main_v59 h1 h2 h3).toBuf v = v := rfl
theorem ofBuf_main_call3_cst (h1 h2 h3) (v : main_call3_cst.ty.Contents (Elt F)) :
    (TRef.of (T := ⟨S_, .f32⟩) main_call3_cst h1 h2 h3).ofBuf v = v := rfl
theorem toBuf_main_call3_cst (h1 h2 h3) (v : (⟨S_, .f32⟩ : BufTy).Contents (Elt F)) :
    (TRef.of (T := ⟨S_, .f32⟩) main_call3_cst h1 h2 h3).toBuf v = v := rfl
theorem ofBuf_main_v90 (h1 h2 h3) (v : main_v90.ty.Contents (Elt F)) :
    (TRef.of (T := ⟨S50000x64, .f32⟩) main_v90 h1 h2 h3).ofBuf v = v := rfl
theorem toBuf_main_v90 (h1 h2 h3) (v : (⟨S50000x64, .f32⟩ : BufTy).Contents (Elt F)) :
    (TRef.of (T := ⟨S50000x64, .f32⟩) main_v90 h1 h2 h3).toBuf v = v := rfl
theorem ofBuf_main_call3_v0 (h1 h2 h3) (v : main_call3_v0.ty.Contents (Elt F)) :
    (TRef.of (T := ⟨S50000, .f32⟩) main_call3_v0 h1 h2 h3).ofBuf v = v := rfl
theorem toBuf_main_call3_v0 (h1 h2 h3) (v : (⟨S50000, .f32⟩ : BufTy).Contents (Elt F)) :
    (TRef.of (T := ⟨S50000, .f32⟩) main_call3_v0 h1 h2 h3).toBuf v = v := rfl
theorem ofBuf_main_call3_cst_0 (h1 h2 h3) (v : main_call3_cst_0.ty.Contents (Elt F)) :
    (TRef.of (T := ⟨S_, .f32⟩) main_call3_cst_0 h1 h2 h3).ofBuf v = v := rfl
theorem toBuf_main_call3_cst_0 (h1 h2 h3) (v : (⟨S_, .f32⟩ : BufTy).Contents (Elt F)) :
    (TRef.of (T := ⟨S_, .f32⟩) main_call3_cst_0 h1 h2 h3).toBuf v = v := rfl
theorem ofBuf_main_call3_v1 (h1 h2 h3) (v : main_call3_v1.ty.Contents (Elt F)) :
    (TRef.of (T := ⟨S50000, .f32⟩) main_call3_v1 h1 h2 h3).ofBuf v = v := rfl
theorem toBuf_main_call3_v1 (h1 h2 h3) (v : (⟨S50000, .f32⟩ : BufTy).Contents (Elt F)) :
    (TRef.of (T := ⟨S50000, .f32⟩) main_call3_v1 h1 h2 h3).toBuf v = v := rfl
theorem ofBuf_main_call3_v2 (h1 h2 h3) (v : main_call3_v2.ty.Contents (Elt F)) :
    (TRef.of (T := ⟨S50000, .f32⟩) main_call3_v2 h1 h2 h3).ofBuf v = v := rfl
theorem toBuf_main_call3_v2 (h1 h2 h3) (v : (⟨S50000, .f32⟩ : BufTy).Contents (Elt F)) :
    (TRef.of (T := ⟨S50000, .f32⟩) main_call3_v2 h1 h2 h3).toBuf v = v := rfl
theorem ofBuf_main_call3_v3 (h1 h2 h3) (v : main_call3_v3.ty.Contents (Elt F)) :
    (TRef.of (T := ⟨S50000x1, .f32⟩) main_call3_v3 h1 h2 h3).ofBuf v = v := rfl
theorem toBuf_main_call3_v3 (h1 h2 h3) (v : (⟨S50000x1, .f32⟩ : BufTy).Contents (Elt F)) :
    (TRef.of (T := ⟨S50000x1, .f32⟩) main_call3_v3 h1 h2 h3).toBuf v = v := rfl
theorem ofBuf_main_call3_v4 (h1 h2 h3) (v : main_call3_v4.ty.Contents (Elt F)) :
    (TRef.of (T := ⟨S50000x64, .f32⟩) main_call3_v4 h1 h2 h3).ofBuf v = v := rfl
theorem toBuf_main_call3_v4 (h1 h2 h3) (v : (⟨S50000x64, .f32⟩ : BufTy).Contents (Elt F)) :
    (TRef.of (T := ⟨S50000x64, .f32⟩) main_call3_v4 h1 h2 h3).toBuf v = v := rfl
theorem ofBuf_main_call3_v5 (h1 h2 h3) (v : main_call3_v5.ty.Contents (Elt F)) :
    (TRef.of (T := ⟨S50000x64, .f32⟩) main_call3_v5 h1 h2 h3).ofBuf v = v := rfl
theorem toBuf_main_call3_v5 (h1 h2 h3) (v : (⟨S50000x64, .f32⟩ : BufTy).Contents (Elt F)) :
    (TRef.of (T := ⟨S50000x64, .f32⟩) main_call3_v5 h1 h2 h3).toBuf v = v := rfl
theorem ofBuf_main_call3_v6 (h1 h2 h3) (v : main_call3_v6.ty.Contents (Elt F)) :
    (TRef.of (T := ⟨S50000x64, .f32⟩) main_call3_v6 h1 h2 h3).ofBuf v = v := rfl
theorem toBuf_main_call3_v6 (h1 h2 h3) (v : (⟨S50000x64, .f32⟩ : BufTy).Contents (Elt F)) :
    (TRef.of (T := ⟨S50000x64, .f32⟩) main_call3_v6 h1 h2 h3).toBuf v = v := rfl
theorem ofBuf_main_call3_cst_1 (h1 h2 h3) (v : main_call3_cst_1.ty.Contents (Elt F)) :
    (TRef.of (T := ⟨S_, .f32⟩) main_call3_cst_1 h1 h2 h3).ofBuf v = v := rfl
theorem toBuf_main_call3_cst_1 (h1 h2 h3) (v : (⟨S_, .f32⟩ : BufTy).Contents (Elt F)) :
    (TRef.of (T := ⟨S_, .f32⟩) main_call3_cst_1 h1 h2 h3).toBuf v = v := rfl
theorem ofBuf_main_call3_v7 (h1 h2 h3) (v : main_call3_v7.ty.Contents (Elt F)) :
    (TRef.of (T := ⟨S50000, .f32⟩) main_call3_v7 h1 h2 h3).ofBuf v = v := rfl
theorem toBuf_main_call3_v7 (h1 h2 h3) (v : (⟨S50000, .f32⟩ : BufTy).Contents (Elt F)) :
    (TRef.of (T := ⟨S50000, .f32⟩) main_call3_v7 h1 h2 h3).toBuf v = v := rfl
theorem ofBuf_main_call3_v8 (h1 h2 h3) (v : main_call3_v8.ty.Contents (Elt F)) :
    (TRef.of (T := ⟨S50000x1, .f32⟩) main_call3_v8 h1 h2 h3).ofBuf v = v := rfl
theorem toBuf_main_call3_v8 (h1 h2 h3) (v : (⟨S50000x1, .f32⟩ : BufTy).Contents (Elt F)) :
    (TRef.of (T := ⟨S50000x1, .f32⟩) main_call3_v8 h1 h2 h3).toBuf v = v := rfl
theorem ofBuf_main_call3_v9 (h1 h2 h3) (v : main_call3_v9.ty.Contents (Elt F)) :
    (TRef.of (T := ⟨S50000x1, .f32⟩) main_call3_v9 h1 h2 h3).ofBuf v = v := rfl
theorem toBuf_main_call3_v9 (h1 h2 h3) (v : (⟨S50000x1, .f32⟩ : BufTy).Contents (Elt F)) :
    (TRef.of (T := ⟨S50000x1, .f32⟩) main_call3_v9 h1 h2 h3).toBuf v = v := rfl
theorem ofBuf_main_call3_v10 (h1 h2 h3) (v : main_call3_v10.ty.Contents (Elt F)) :
    (TRef.of (T := ⟨S50000x64, .f32⟩) main_call3_v10 h1 h2 h3).ofBuf v = v := rfl
theorem toBuf_main_call3_v10 (h1 h2 h3) (v : (⟨S50000x64, .f32⟩ : BufTy).Contents (Elt F)) :
    (TRef.of (T := ⟨S50000x64, .f32⟩) main_call3_v10 h1 h2 h3).toBuf v = v := rfl
theorem ofBuf_main_v91 (h1 h2 h3) (v : main_v91.ty.Contents (Elt F)) :
    (TRef.of (T := ⟨S50000x64, .f32⟩) main_v91 h1 h2 h3).ofBuf v = v := rfl
theorem toBuf_main_v91 (h1 h2 h3) (v : (⟨S50000x64, .f32⟩ : BufTy).Contents (Elt F)) :
    (TRef.of (T := ⟨S50000x64, .f32⟩) main_v91 h1 h2 h3).toBuf v = v := rfl

end Cert.ReferenceIdeal.RunValue

end
-- ==== Proof.RefStageA.lean ====
/-
  Stage A of the reference read against an arbitrary valuation: the row numbers, the first dense product and the inverse
  square-root degrees are the staged values of the argument buffers; the other arguments are untouched.
-/
import proofs.«130009_j68779606278426_2_alg».proof.Proof.RefStages

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## Stage A: the row numbers, the first dense product, the inverse square-root degrees -/

set_option maxHeartbeats 0 in
theorem A_v1 (V : Valuation τ sig (Elt F)) (x1 : (⟨S2x800000, .i32⟩ : BufTy).Contents (Elt F)) (h0 : V (Proc.devRef .tc main_arg1) = x1) :
    StableHlo.after (opsA (F := F)) V (Proc.devRef .tc main_v1) = ReadP.val_main_v1 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
set_option maxHeartbeats 0 in
theorem A_v3 (V : Valuation τ sig (Elt F)) (x1 : (⟨S2x800000, .i32⟩ : BufTy).Contents (Elt F)) (h0 : V (Proc.devRef .tc main_arg1) = x1) :
    StableHlo.after (opsA (F := F)) V (Proc.devRef .tc main_v3) = ReadP.val_main_v3 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
set_option maxHeartbeats 0 in
theorem A_v5 (V : Valuation τ sig (Elt F)) (x1 : (⟨S2x800000, .i32⟩ : BufTy).Contents (Elt F)) (h0 : V (Proc.devRef .tc main_arg1) = x1) :
    StableHlo.after (opsA (F := F)) V (Proc.devRef .tc main_v5) = ReadP.val_main_v5 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
set_option maxHeartbeats 0 in
theorem A_v6 (V : Valuation τ sig (Elt F)) (x1 : (⟨S2x800000, .i32⟩ : BufTy).Contents (Elt F)) (h0 : V (Proc.devRef .tc main_arg1) = x1) :
    StableHlo.after (opsA (F := F)) V (Proc.devRef .tc main_v6) = ReadP.val_main_v6 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
set_option maxHeartbeats 0 in
theorem A_v7 (V : Valuation τ sig (Elt F)) (x0 : (⟨S50000x128, .f32⟩ : BufTy).Contents (Elt F)) (x2 : (⟨S128x128, .f32⟩ : BufTy).Contents (Elt F)) (h0 : V (Proc.devRef .tc main_arg0) = x0) (h1 : V (Proc.devRef .tc main_arg2) = x2) :
    StableHlo.after (opsA (F := F)) V (Proc.devRef .tc main_v7) = ReadP.val_main_v7 (F := F) x0 x2 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try rw [h1])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
set_option maxHeartbeats 0 in
theorem A_v15 (V : Valuation τ sig (Elt F)) (x1 : (⟨S2x800000, .i32⟩ : BufTy).Contents (Elt F)) (h0 : V (Proc.devRef .tc main_arg1) = x1) :
    StableHlo.after (opsA (F := F)) V (Proc.devRef .tc main_v15) = ReadP.val_main_v15 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15])
  all_goals (try rw [h0])
  all_goals (try simp only [ReadP.val_main_v0, ReadP.val_main_v1, ReadP.val_main_v2, ReadP.val_main_v3, ReadP.val_main_v4, ReadP.val_main_v5, ReadP.val_main_v6, ReadP.val_main_v7, ReadP.val_main_cst, ReadP.val_main_v8, ReadP.val_main_cst_0, ReadP.val_main_v9, ReadP.val_main_v10, ReadP.val_main_v11, ReadP.val_main_cst_1, ReadP.val_main_v12, ReadP.val_main_v13, ReadP.val_main_v14, ReadP.val_main_cst_2, ReadP.val_main_call0_v0, ReadP.val_main_call0_v1, ReadP.val_main_v15])
  all_goals (try rfl)
theorem A_arg3 (V : Valuation τ sig (Elt F)) : StableHlo.after (opsA (F := F)) V (Proc.devRef .tc main_arg3) = V (Proc.devRef .tc main_arg3) := by
  after_results_simp
  all_goals (try rfl)
theorem A_arg4 (V : Valuation τ sig (Elt F)) : StableHlo.after (opsA (F := F)) V (Proc.devRef .tc main_arg4) = V (Proc.devRef .tc main_arg4) := by
  after_results_simp
  all_goals (try rfl)
theorem A_arg5 (V : Valuation τ sig (Elt F)) : StableHlo.after (opsA (F := F)) V (Proc.devRef .tc main_arg5) = V (Proc.devRef .tc main_arg5) := by
  after_results_simp
  all_goals (try rfl)

end Cert.ReferenceIdeal.RunValue

end
-- ==== Proof.RefStageB.lean ====
/-
  Stage B of the reference read against an arbitrary valuation: the first layer and its clamp at zero are the staged value once the
  row numbers, the dense product, the degrees and the bias hold theirs; the buffers later stages read are untouched.
-/
import proofs.«130009_j68779606278426_2_alg».proof.Proof.RefStages

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## Stage B: the first layer and its clamp -/

set_option maxHeartbeats 0 in
theorem B_v47 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (h0 : V (Proc.devRef .tc main_v5) = ReadP.val_main_v5 (F := F) x1) (h1 : V (Proc.devRef .tc main_v6) = ReadP.val_main_v6 (F := F) x1) (h2 : V (Proc.devRef .tc main_v7) = ReadP.val_main_v7 (F := F) x0 x2) (h3 : V (Proc.devRef .tc main_v15) = ReadP.val_main_v15 (F := F) x1) (h4 : V (Proc.devRef .tc main_arg3) = x3) :
    StableHlo.after (opsB (F := F)) V (Proc.devRef .tc main_v47) = ReadP.val_main_v47 (F := F) x0 x1 x2 x3 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_call1_cst, toBuf_main_call1_cst, ofBuf_main_call1_v0, toBuf_main_call1_v0, ofBuf_main_v46, toBuf_main_v46, ofBuf_main_v47, toBuf_main_v47])
  all_goals (try rw [h0])
  all_goals (try rw [h1])
  all_goals (try rw [h2])
  all_goals (try rw [h3])
  all_goals (try rw [h4])
  all_goals (try simp only [ReadP.val_main_c, ReadP.val_main_v16, ReadP.val_main_v17, ReadP.val_main_c_3, ReadP.val_main_v18, ReadP.val_main_v19, ReadP.val_main_v20, ReadP.val_main_v21, ReadP.val_main_v22, ReadP.val_main_c_4, ReadP.val_main_v23, ReadP.val_main_v24, ReadP.val_main_c_5, ReadP.val_main_v25, ReadP.val_main_v26, ReadP.val_main_v27, ReadP.val_main_v28, ReadP.val_main_v29, ReadP.val_main_v30, ReadP.val_main_c_6, ReadP.val_main_v31, ReadP.val_main_v32, ReadP.val_main_c_7, ReadP.val_main_v33, ReadP.val_main_v34, ReadP.val_main_v35, ReadP.val_main_v36, ReadP.val_main_v37, ReadP.val_main_v38, ReadP.val_main_v39, ReadP.val_main_v40, ReadP.val_main_cst_8, ReadP.val_main_v41, ReadP.val_main_v42, ReadP.val_main_v43, ReadP.val_main_v44, ReadP.val_main_v45, ReadP.val_main_v46, ReadP.val_main_call1_cst, ReadP.val_main_call1_v0, ReadP.val_main_v47])
  all_goals (try rfl)
theorem B_v1 (V : Valuation τ sig (Elt F)) : StableHlo.after (opsB (F := F)) V (Proc.devRef .tc main_v1) = V (Proc.devRef .tc main_v1) := by
  after_results_simp
  all_goals (try rfl)
theorem B_v3 (V : Valuation τ sig (Elt F)) : StableHlo.after (opsB (F := F)) V (Proc.devRef .tc main_v3) = V (Proc.devRef .tc main_v3) := by
  after_results_simp
  all_goals (try rfl)
theorem B_arg4 (V : Valuation τ sig (Elt F)) : StableHlo.after (opsB (F := F)) V (Proc.devRef .tc main_arg4) = V (Proc.devRef .tc main_arg4) := by
  after_results_simp
  all_goals (try rfl)
theorem B_arg5 (V : Valuation τ sig (Elt F)) : StableHlo.after (opsB (F := F)) V (Proc.devRef .tc main_arg5) = V (Proc.devRef .tc main_arg5) := by
  after_results_simp
  all_goals (try rfl)

end Cert.ReferenceIdeal.RunValue

end
-- ==== Proof.RefStageC.lean ====
/-
  Stage C of the reference read against an arbitrary valuation: the second set of row numbers, the second dense product and the
  second inverse square-root degrees are the staged values once their operand buffers hold theirs.
-/
import proofs.«130009_j68779606278426_2_alg».proof.Proof.RefStages

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## Stage C: the row numbers and the inverse square-root degrees again, the second dense product's operands -/

set_option maxHeartbeats 0 in
theorem C_v49 (V : Valuation τ sig (Elt F)) (x1 : (⟨S2x800000, .i32⟩ : BufTy).Contents (Elt F)) (h0 : V (Proc.devRef .tc main_v1) = ReadP.val_main_v1 (F := F) x1) :
    StableHlo.after (opsC (F := F)) V (Proc.devRef .tc main_v49) = ReadP.val_main_v49 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_12, toBuf_main_cst_12, ofBuf_main_call2_v0, toBuf_main_call2_v0, ofBuf_main_call2_v1, toBuf_main_call2_v1, ofBuf_main_v57, toBuf_main_v57, ofBuf_main_v58, toBuf_main_v58, ofBuf_main_v59, toBuf_main_v59])
  all_goals (try rw [h0])
  all_goals (try simp only [ReadP.val_main_v48, ReadP.val_main_v49, ReadP.val_main_v50, ReadP.val_main_v51, ReadP.val_main_cst_9, ReadP.val_main_v52, ReadP.val_main_cst_10, ReadP.val_main_v53, ReadP.val_main_v54, ReadP.val_main_v55, ReadP.val_main_cst_11, ReadP.val_main_v56, ReadP.val_main_v57, ReadP.val_main_v58, ReadP.val_main_cst_12, ReadP.val_main_call2_v0, ReadP.val_main_call2_v1, ReadP.val_main_v59])
  all_goals (try rfl)
set_option maxHeartbeats 0 in
theorem C_v50 (V : Valuation τ sig (Elt F)) (x1 : (⟨S2x800000, .i32⟩ : BufTy).Contents (Elt F)) (h0 : V (Proc.devRef .tc main_v3) = ReadP.val_main_v3 (F := F) x1) :
    StableHlo.after (opsC (F := F)) V (Proc.devRef .tc main_v50) = ReadP.val_main_v50 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_12, toBuf_main_cst_12, ofBuf_main_call2_v0, toBuf_main_call2_v0, ofBuf_main_call2_v1, toBuf_main_call2_v1, ofBuf_main_v57, toBuf_main_v57, ofBuf_main_v58, toBuf_main_v58, ofBuf_main_v59, toBuf_main_v59])
  all_goals (try rw [h0])
  all_goals (try simp only [ReadP.val_main_v48, ReadP.val_main_v49, ReadP.val_main_v50, ReadP.val_main_v51, ReadP.val_main_cst_9, ReadP.val_main_v52, ReadP.val_main_cst_10, ReadP.val_main_v53, ReadP.val_main_v54, ReadP.val_main_v55, ReadP.val_main_cst_11, ReadP.val_main_v56, ReadP.val_main_v57, ReadP.val_main_v58, ReadP.val_main_cst_12, ReadP.val_main_call2_v0, ReadP.val_main_call2_v1, ReadP.val_main_v59])
  all_goals (try rfl)
set_option maxHeartbeats 0 in
theorem C_v51 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (h0 : V (Proc.devRef .tc main_v47) = ReadP.val_main_v47 (F := F) x0 x1 x2 x3) (h1 : V (Proc.devRef .tc main_arg4) = x4) :
    StableHlo.after (opsC (F := F)) V (Proc.devRef .tc main_v51) = ReadP.val_main_v51 (F := F) x0 x1 x2 x3 x4 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_12, toBuf_main_cst_12, ofBuf_main_call2_v0, toBuf_main_call2_v0, ofBuf_main_call2_v1, toBuf_main_call2_v1, ofBuf_main_v57, toBuf_main_v57, ofBuf_main_v58, toBuf_main_v58, ofBuf_main_v59, toBuf_main_v59])
  all_goals (try rw [h0])
  all_goals (try rw [h1])
  all_goals (try simp only [ReadP.val_main_v48, ReadP.val_main_v49, ReadP.val_main_v50, ReadP.val_main_v51, ReadP.val_main_cst_9, ReadP.val_main_v52, ReadP.val_main_cst_10, ReadP.val_main_v53, ReadP.val_main_v54, ReadP.val_main_v55, ReadP.val_main_cst_11, ReadP.val_main_v56, ReadP.val_main_v57, ReadP.val_main_v58, ReadP.val_main_cst_12, ReadP.val_main_call2_v0, ReadP.val_main_call2_v1, ReadP.val_main_v59])
  all_goals (try rfl)
set_option maxHeartbeats 0 in
theorem C_v59 (V : Valuation τ sig (Elt F)) (x1 : (⟨S2x800000, .i32⟩ : BufTy).Contents (Elt F)) (h0 : V (Proc.devRef .tc main_v3) = ReadP.val_main_v3 (F := F) x1) :
    StableHlo.after (opsC (F := F)) V (Proc.devRef .tc main_v59) = ReadP.val_main_v59 (F := F) x1 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try simp only [ofBuf_main_cst_12, toBuf_main_cst_12, ofBuf_main_call2_v0, toBuf_main_call2_v0, ofBuf_main_call2_v1, toBuf_main_call2_v1, ofBuf_main_v57, toBuf_main_v57, ofBuf_main_v58, toBuf_main_v58, ofBuf_main_v59, toBuf_main_v59])
  all_goals (try rw [h0])
  all_goals (try simp only [ReadP.val_main_v48, ReadP.val_main_v49, ReadP.val_main_v50, ReadP.val_main_v51, ReadP.val_main_cst_9, ReadP.val_main_v52, ReadP.val_main_cst_10, ReadP.val_main_v53, ReadP.val_main_v54, ReadP.val_main_v55, ReadP.val_main_cst_11, ReadP.val_main_v56, ReadP.val_main_v57, ReadP.val_main_v58, ReadP.val_main_cst_12, ReadP.val_main_call2_v0, ReadP.val_main_call2_v1, ReadP.val_main_v59])
  all_goals (try rfl)
theorem C_arg5 (V : Valuation τ sig (Elt F)) : StableHlo.after (opsC (F := F)) V (Proc.devRef .tc main_arg5) = V (Proc.devRef .tc main_arg5) := by
  after_results_simp
  all_goals (try rfl)

end Cert.ReferenceIdeal.RunValue

end
-- ==== Proof.RefStageD.lean ====
/-
  Stage D of the reference read against an arbitrary valuation: the second layer's output is the staged value once its operand
  buffers hold theirs.
-/
import proofs.«130009_j68779606278426_2_alg».proof.Proof.RefStages

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## Stage D: the second layer -/

set_option maxHeartbeats 0 in
theorem D_v90 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (h0 : V (Proc.devRef .tc main_v49) = ReadP.val_main_v49 (F := F) x1) (h1 : V (Proc.devRef .tc main_v50) = ReadP.val_main_v50 (F := F) x1) (h2 : V (Proc.devRef .tc main_v51) = ReadP.val_main_v51 (F := F) x0 x1 x2 x3 x4) (h3 : V (Proc.devRef .tc main_v59) = ReadP.val_main_v59 (F := F) x1) (h4 : V (Proc.devRef .tc main_arg5) = x5) :
    StableHlo.after (opsD (F := F)) V (Proc.devRef .tc main_v90) = ReadP.val_main_v90 (F := F) x0 x1 x2 x3 x4 x5 := by
  after_results_simp
  all_goals (try (
    repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))
  all_goals (try rw [h0])
  all_goals (try rw [h1])
  all_goals (try rw [h2])
  all_goals (try rw [h3])
  all_goals (try rw [h4])
  all_goals (try simp only [ReadP.val_main_c_13, ReadP.val_main_v60, ReadP.val_main_v61, ReadP.val_main_c_14, ReadP.val_main_v62, ReadP.val_main_v63, ReadP.val_main_v64, ReadP.val_main_v65, ReadP.val_main_v66, ReadP.val_main_c_15, ReadP.val_main_v67, ReadP.val_main_v68, ReadP.val_main_c_16, ReadP.val_main_v69, ReadP.val_main_v70, ReadP.val_main_v71, ReadP.val_main_v72, ReadP.val_main_v73, ReadP.val_main_v74, ReadP.val_main_c_17, ReadP.val_main_v75, ReadP.val_main_v76, ReadP.val_main_c_18, ReadP.val_main_v77, ReadP.val_main_v78, ReadP.val_main_v79, ReadP.val_main_v80, ReadP.val_main_v81, ReadP.val_main_v82, ReadP.val_main_v83, ReadP.val_main_v84, ReadP.val_main_cst_19, ReadP.val_main_v85, ReadP.val_main_v86, ReadP.val_main_v87, ReadP.val_main_v88, ReadP.val_main_v89, ReadP.val_main_v90])
  all_goals (try rfl)

end Cert.ReferenceIdeal.RunValue

end
-- ==== Proof.RefStageE.lean ====
/-
  Stage E of the reference read against an arbitrary valuation: the row-wise log-softmax of the buffer holding the logits.
-/
import proofs.«130009_j68779606278426_2_alg».proof.Proof.RefStages

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

-- the row maximum folds over the 3200000 elements of the array: it is compared as it stands, never opened
attribute [local irreducible] Host.reduce

/-! ## Stage E: the row-wise log-softmax -/

/-- A value moved into a typed reference's buffer and back is the value. -/
theorem ofBuf_toBuf_pair {T : BufTy} (x : TRef sig T) (v : T.Contents (Elt F)) : x.ofBuf (x.toBuf v) = v := by
  obtain ⟨r, h, h2, h3⟩ := x
  subst h
  rfl

set_option maxHeartbeats 0 in
theorem E_v91 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (h0 : V (Proc.devRef .tc main_v90) = ReadP.val_main_v90 (F := F) x0 x1 x2 x3 x4 x5) :
    StableHlo.after (opsE (F := F)) V (Proc.devRef .tc main_v91) = ReadP.val_main_v91 (F := F) x0 x1 x2 x3 x4 x5 := by
  after_results_simp
  simp only [ofBuf_toBuf_pair]
  rw [toBuf_main_v91]
  simp only [ofBuf_main_v90]
  rw [h0]
  all_goals (try simp only [ReadP.val_main_call3_cst, ReadP.val_main_call3_v0, ReadP.val_main_call3_cst_0, ReadP.val_main_call3_v1, ReadP.val_main_call3_v2, ReadP.val_main_call3_v3, ReadP.val_main_call3_v4, ReadP.val_main_call3_v5, ReadP.val_main_call3_v6, ReadP.val_main_call3_cst_1, ReadP.val_main_call3_v7, ReadP.val_main_call3_v8, ReadP.val_main_call3_v9, ReadP.val_main_call3_v10, ReadP.val_main_v91])
  all_goals (try rfl)

end Cert.ReferenceIdeal.RunValue

end
-- ==== Proof.RefRunValue.lean ====
/-
  The reference's run with its result named by the staged values.

  @main of the reference is a straight line of 134 host operations; every weakly fair execution ends with each buffer at
  the fold of the operations' results over the launch contents. The fold is read in five stages against an arbitrary
  valuation — the row numbers, the first dense product and the inverse square-root degrees; the first layer and its
  clamp; the second set of row numbers, degrees and the second dense product; the second layer; the row-wise
  log-softmax — each stage's result buffers being the staged values of the arguments once its operand buffers are
  (so no stage sees more than its own forty operations, and a value used several times is one name). The operations
  an outlined function contributes move their operands through typed references whose transports are the identity.
-/
import proofs.«130009_j68779606278426_2_alg».proof.Proof.RefStageA
import proofs.«130009_j68779606278426_2_alg».proof.Proof.RefStageB
import proofs.«130009_j68779606278426_2_alg».proof.Proof.RefStageC
import proofs.«130009_j68779606278426_2_alg».proof.Proof.RefStageD
import proofs.«130009_j68779606278426_2_alg».proof.Proof.RefStageE

set_option maxRecDepth 16384

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The five stages composed -/

/-- The result buffer after the whole line is the staged value of the argument buffers' contents. -/
theorem value_of_after (V : Valuation τ sig (Elt F)) :
    StableHlo.after (ops (F := F)) V (Proc.devRef .tc main_v91)
      = ReadP.val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_append]
  have hA1 := A_v1 V _ rfl
  have hA3 := A_v3 V _ rfl
  have hA5 := A_v5 V _ rfl
  have hA6 := A_v6 V _ rfl
  have hA7 := A_v7 V _ _ rfl rfl
  have hA15 := A_v15 V _ rfl
  have hB47 := B_v47 (StableHlo.after opsA V) _ _ _ _ hA5 hA6 hA7 hA15 (A_arg3 V)
  have hB1 := (B_v1 (StableHlo.after opsA V)).trans hA1
  have hB3 := (B_v3 (StableHlo.after opsA V)).trans hA3
  have hB4 := (B_arg4 (StableHlo.after opsA V)).trans (A_arg4 V)
  have hB5 := (B_arg5 (StableHlo.after opsA V)).trans (A_arg5 V)
  have hC49 := C_v49 (StableHlo.after opsB (StableHlo.after opsA V)) _ hB1
  have hC50 := C_v50 (StableHlo.after opsB (StableHlo.after opsA V)) _ hB3
  have hC51 := C_v51 (StableHlo.after opsB (StableHlo.after opsA V)) _ _ _ _ _ hB47 hB4
  have hC59 := C_v59 (StableHlo.after opsB (StableHlo.after opsA V)) _ hB3
  have hC5 := (C_arg5 (StableHlo.after opsB (StableHlo.after opsA V))).trans hB5
  have hD90 := D_v90 (StableHlo.after opsC (StableHlo.after opsB (StableHlo.after opsA V))) _ _ _ _ _ _ hC49 hC50 hC51 hC59 hC5
  exact E_v91 (StableHlo.after opsD (StableHlo.after opsC (StableHlo.after opsB (StableHlo.after opsA V)))) _ _ _ _ _ _ hD90

/-! ## The run -/

set_option maxHeartbeats 0 in
/-- On every device, from any memory with zero counters: every weakly fair execution of the reference's @main terminates
    with the result at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
        = ReadP.val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (value_of_after _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.LibRowGatherScatter.lean ====
/-
  Row gather and row scatter read at an index.

  `x[idx]` of a matrix `x : [N, F]` at a column of row numbers `idx : [E, 1]` lowers to `stablehlo.gather` with offset
  axis `[1]`, collapsed axis `[0]`, start-index map `[0]`, index-vector axis 1 and slices `[1, F]`: result element
  `(e, f)` is `x` at row `clamp (idx[e, 0])` and column `f`, the row number read as a signed integer and clamped into
  `[0, N - 1]`. The same for a vector `x : [N]` (no offset axis, slices `[1]`): result element `e` is `x` at
  `clamp (idx[e, 0])`.

  A segment sum of the rows of `u : [E, F]` into `[N, F]` lowers to `stablehlo.scatter` with update window axis `[1]`,
  inserted window axis `[0]`, scatter-dims-to-operand-dims `[0]` and index-vector axis 1: update element `(e, f)` lands on
  `(idx[e, 0], f)`, the row number read as a signed integer and NOT clamped, and is dropped when that row is outside `[0, N)`.
-/
import Idealize.ShloMosaic.PureOps.Ideal
import Idealize.ShloMosaic.Lib.ValueIdx

noncomputable section

namespace Idealize.ShloMosaic.RowIdx

open Idealize.ShloMosaic Idealize.ShloMosaic.ValueIdx

/-- The entry `[e, 0]` of a column of row numbers. -/
abbrev colIdx {E : Nat} (e : Fin E) : (⟨2, ![E, 1]⟩ : Shape).Idx := ix2 e (0 : Fin 1)

/-- A row number read signed and clamped into `[0, N - 1]`. -/
def clampRow (N : Nat) (hN : 0 < N) {w : Nat} (v : BitVec w) : Fin N := ⟨min v.toInt.toNat (N - 1), by omega⟩

/-- A row number that, read signed, is the row `r` is clamped to `r`. -/
theorem clampRow_of_toInt {N : Nat} (hN : 0 < N) {w : Nat} (v : BitVec w) (r : Fin N) (h : v.toInt = (r.val : ℤ)) :
    clampRow N hN v = r := by
  refine Fin.ext ?_
  show min v.toInt.toNat (N - 1) = r.val
  rw [h, Int.toNat_natCast]
  have := r.isLt
  omega

/-! ## The matrix row gather -/

/-- The dimension numbers of `x[idx]` for `x : [N, F]`, `idx : [E, 1]`. -/
abbrev rowGatherDims (N F E : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The operand index of result element `(e, f)`: row `clamp (idx[e, 0])`, column `f`. -/
theorem rowGather_operandIdx0 {N F E w : Nat} (hN : 0 < N)
    (wf : GatherDims.WF ⟨2, ![N, F]⟩ ⟨2, ![E, 1]⟩ ⟨2, ![E, F]⟩ [1] [0] [] [0] [] 1 ![1, F])
    (idx : IVec ⟨2, ![E, 1]⟩ w) (e : Fin E) (f : Fin F) :
    ((rowGatherDims N F E wf).operandIdx (ix2 e f) idx (0 : Fin 2)).val = (clampRow N hN (idx (colIdx e))).val := by
  show (rowGatherDims N F E wf).start (ix2 e f) idx (0 : Fin 2) + (rowGatherDims N F E wf).batchCoord (ix2 e f) (0 : Fin 2)
      + (rowGatherDims N F E wf).offCoord (ix2 e f) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N F E wf).startIndexMap from List.mem_singleton.mpr rfl)]
  have hsi : (rowGatherDims N F E wf).siIdx (ix2 e f) ⟨List.idxOf (0 : Fin 2) (rowGatherDims N F E wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

theorem rowGather_operandIdx1 {N F E w : Nat}
    (wf : GatherDims.WF ⟨2, ![N, F]⟩ ⟨2, ![E, 1]⟩ ⟨2, ![E, F]⟩ [1] [0] [] [0] [] 1 ![1, F])
    (idx : IVec ⟨2, ![E, 1]⟩ w) (e : Fin E) (f : Fin F) :
    ((rowGatherDims N F E wf).operandIdx (ix2 e f) idx (1 : Fin 2)).val = f.val := by
  show (rowGatherDims N F E wf).start (ix2 e f) idx (1 : Fin 2) + (rowGatherDims N F E wf).batchCoord (ix2 e f) (1 : Fin 2)
      + (rowGatherDims N F E wf).offCoord (ix2 e f) (1 : Fin 2) = _
  rw [GatherDims.batchCoord_eq_zero _ _ _ List.not_mem_nil]
  have h0 : (rowGatherDims N F E wf).start (ix2 e f) idx (1 : Fin 2) = 0 := by
    unfold GatherDims.start
    rw [dif_neg (show (1 : Fin 2) ∉ ([0] : List (Fin 2)) by decide)]
  rw [h0]
  simp only [Nat.zero_add, Nat.add_zero]
  rfl

/-- The operand index of result element `(e, f)`: row `clamp (idx[e, 0])`, column `f`. -/
theorem rowGather_operandIdx {N F E w : Nat} (hN : 0 < N)
    (wf : GatherDims.WF ⟨2, ![N, F]⟩ ⟨2, ![E, 1]⟩ ⟨2, ![E, F]⟩ [1] [0] [] [0] [] 1 ![1, F])
    (idx : IVec ⟨2, ![E, 1]⟩ w) (e : Fin E) (f : Fin F) :
    (rowGatherDims N F E wf).operandIdx (ix2 e f) idx = ix2 (clampRow N hN (idx (colIdx e))) f := by
  funext a
  refine Fin.ext ?_
  match a with
  | ⟨0, _⟩ => exact rowGather_operandIdx0 hN wf idx e f
  | ⟨1, _⟩ => exact rowGather_operandIdx1 wf idx e f

/-- THE MATRIX ROW GATHER READ AT `(e, f)`. -/
theorem rowGather_apply {α : Type} {N F E w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N F E wf) x idx (ix2 e f) = x (ix2 (clampRow N hN (idx (colIdx e))) f) := by
  unfold Host.gather
  rw [rowGather_operandIdx hN wf idx e f]

/-! ## The vector gather -/

/-- The dimension numbers of `x[idx]` for `x : [N]`, `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clamp (idx[e, 0])`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (colIdx e)))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## The row scatter -/

/-- The dimension numbers of a segment sum of the rows of `[E, F]` into `[N, F]` at a column of row numbers `[E, 1]`. -/
abbrev rowScatterDims (N F E : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

theorem rowScatter_start0 {N F E w : Nat} (wf : ScatterDims.WF ⟨2, ![N, F]⟩ ⟨2, ![E, 1]⟩ ⟨2, ![E, F]⟩ [1] [0] [0] 1)
    (idx : IVec ⟨2, ![E, 1]⟩ w) (e : Fin E) (f : Fin F) :
    (rowScatterDims N F E wf).start (ix2 e f) idx (0 : Fin 2) = (idx (colIdx e)).toInt := by
  unfold ScatterDims.start
  rw [dif_pos (show ((0 : Fin 2) : Fin 2) ∈ (rowScatterDims N F E wf).scatterDimsToOperandDims from List.mem_singleton.mpr rfl)]
  have hsi : (rowScatterDims N F E wf).siIdx (ix2 e f) ⟨List.idxOf ((0 : Fin 2) : Fin 2) (rowScatterDims N F E wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]

theorem rowScatter_start1 {N F E w : Nat} (wf : ScatterDims.WF ⟨2, ![N, F]⟩ ⟨2, ![E, 1]⟩ ⟨2, ![E, F]⟩ [1] [0] [0] 1)
    (idx : IVec ⟨2, ![E, 1]⟩ w) (j : (⟨2, ![E, F]⟩ : Shape).Idx) :
    (rowScatterDims N F E wf).start j idx (1 : Fin 2) = 0 := by
  unfold ScatterDims.start
  rw [dif_neg (show (1 : Fin 2) ∉ ([0] : List (Fin 2)) by decide)]

theorem rowScatter_window0 {N F E : Nat} (wf : ScatterDims.WF ⟨2, ![N, F]⟩ ⟨2, ![E, 1]⟩ ⟨2, ![E, F]⟩ [1] [0] [0] 1)
    (j : (⟨2, ![E, F]⟩ : Shape).Idx) : (rowScatterDims N F E wf).window j (0 : Fin 2) = 0 := by
  have h : (0 : Fin 2) ∉ (rowScatterDims N F E wf).sKept := by
    show (0 : Fin 2) ∉ (List.finRange 2).filter (· ∉ ([0] : List (Fin 2)))
    decide
  unfold ScatterDims.window
  rw [dif_neg h]

theorem rowScatter_window1 {N F E : Nat} (wf : ScatterDims.WF ⟨2, ![N, F]⟩ ⟨2, ![E, 1]⟩ ⟨2, ![E, F]⟩ [1] [0] [0] 1)
    (e : Fin E) (f : Fin F) : (rowScatterDims N F E wf).window (ix2 e f) (1 : Fin 2) = f.val := by
  have h : (1 : Fin 2) ∈ (rowScatterDims N F E wf).sKept := by
    show (1 : Fin 2) ∈ (List.finRange 2).filter (· ∉ ([0] : List (Fin 2)))
    decide
  unfold ScatterDims.window
  rw [dif_pos h]
  rfl

/-- WHERE AN UPDATE ELEMENT LANDS: `(e, f)` lands on `(r, c)` exactly when the row number `idx[e, 0]`, read signed, is `r`
    and `f = c`. -/
theorem rowScatter_resultIdx?_eq_some_iff {N F E w : Nat}
    (wf : ScatterDims.WF ⟨2, ![N, F]⟩ ⟨2, ![E, 1]⟩ ⟨2, ![E, F]⟩ [1] [0] [0] 1)
    (idx : IVec ⟨2, ![E, 1]⟩ w) (e : Fin E) (f : Fin F) (r : Fin N) (c : Fin F) :
    (rowScatterDims N F E wf).resultIdx? (ix2 e f) idx = some (ix2 r c)
      ↔ (idx (colIdx e)).toInt = (r.val : ℤ) ∧ f = c := by
  have hs0 := rowScatter_start0 wf idx e f
  have hs1 := rowScatter_start1 wf idx (ix2 e f)
  have hw0 := rowScatter_window0 wf (ix2 e f)
  have hw1 := rowScatter_window1 wf e f
  unfold ScatterDims.resultIdx?
  constructor
  · intro h
    split at h
    · rename_i hall
      have heq := Option.some.inj h
      have h0 := congrArg (fun g => (g (0 : Fin 2) : Fin _).val) heq
      have h1 := congrArg (fun g => (g (1 : Fin 2) : Fin _).val) heq
      simp only at h0 h1
      have hb0 := hall (0 : Fin 2)
      rw [hs0, hw0] at hb0 h0
      rw [hs1, hw1] at h1
      refine ⟨?_, Fin.ext ?_⟩
      · have : ((idx (colIdx e)).toInt + ((0 : Nat) : ℤ)).toNat = r.val := h0
        omega
      · have : ((0 : ℤ) + (f.val : ℤ)).toNat = c.val := h1
        omega
    · exact absurd h (by simp)
  · rintro ⟨hr, rfl⟩
    have hall : ∀ a, 0 ≤ (rowScatterDims N F E wf).start (ix2 e f) idx a + ((rowScatterDims N F E wf).window (ix2 e f) a : ℤ)
        ∧ (rowScatterDims N F E wf).start (ix2 e f) idx a + ((rowScatterDims N F E wf).window (ix2 e f) a : ℤ)
          < ((⟨2, ![N, F]⟩ : Shape).size a : ℤ) := by
      intro a
      match a with
      | ⟨0, _⟩ =>
        show 0 ≤ (rowScatterDims N F E wf).start (ix2 e f) idx (0 : Fin 2) + ((rowScatterDims N F E wf).window (ix2 e f) (0 : Fin 2) : ℤ)
          ∧ (rowScatterDims N F E wf).start (ix2 e f) idx (0 : Fin 2) + ((rowScatterDims N F E wf).window (ix2 e f) (0 : Fin 2) : ℤ) < (N : ℤ)
        rw [hs0, hw0, hr]
        have := r.isLt
        omega
      | ⟨1, _⟩ =>
        show 0 ≤ (rowScatterDims N F E wf).start (ix2 e f) idx (1 : Fin 2) + ((rowScatterDims N F E wf).window (ix2 e f) (1 : Fin 2) : ℤ)
          ∧ (rowScatterDims N F E wf).start (ix2 e f) idx (1 : Fin 2) + ((rowScatterDims N F E wf).window (ix2 e f) (1 : Fin 2) : ℤ) < (F : ℤ)
        rw [hs1, hw1]
        have := f.isLt
        omega
    rw [dif_pos hall]
    congr 1
    funext a
    refine Fin.ext ?_
    match a with
    | ⟨0, _⟩ =>
      show ((rowScatterDims N F E wf).start (ix2 e f) idx (0 : Fin 2) + ((rowScatterDims N F E wf).window (ix2 e f) (0 : Fin 2) : ℤ)).toNat = r.val
      rw [hs0, hw0, hr]; omega
    | ⟨1, _⟩ =>
      show ((rowScatterDims N F E wf).start (ix2 e f) idx (1 : Fin 2) + ((rowScatterDims N F E wf).window (ix2 e f) (1 : Fin 2) : ℤ)).toNat = f.val
      rw [hs1, hw1]; omega

end Idealize.ShloMosaic.RowIdx

end
-- ==== Proof.LibSegmentSum.lean ====
/-
  A segment sum of rows commutes with scaling the target row by a nonnegative finite factor.

  With `sd` the dimension numbers of a row scatter (a segment sum of the rows of `[E, F]` into `[N, F]` at a column of
  row numbers), `σ e` the source row and `δ e` the destination row of edge `e`, `xw` a matrix and `d` a vector of
  nonnegative finite factors: summing, over the edges that land on row `r`, the rows `xw[σ e] · d[σ e]` and then scaling
  the sum by `d[r]` gives the sum over those edges of `xw[σ e] · (d[σ e] · d[δ e])` — provided every edge that lands
  on `r` has `δ e = r`. On the extended reals a sum times `d` is the sum of the terms times `d` when `0 ≤ d < ⊤`
  (multiplication by such a `d` distributes over every sum, the infinite ones included); nothing else is asked of the entries of `xw`.
-/
import Idealize.ShloMosaic.PureOps.Ideal
import Idealize.ShloMosaic.Lib.ValueIdx
import proofs.«130009_j68779606278426_2_alg».proof.Proof.LibRowGatherScatter

noncomputable section

namespace Idealize.ShloMosaic.RowIdx

open Idealize.ShloMosaic Idealize.ShloMosaic.ValueIdx
open scoped BigOperators

/-- A finite sum of extended reals times a nonnegative finite factor is the sum of the products. -/
theorem sum_mul_of_nonneg_of_ne_top {ι : Type} (s : Finset ι) (f : ι → EReal) {d : EReal} (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top h0 ht, ih]

/-- THE LAYER LAW. `uk` is the update array "source row, scaled by the source's factor"; `ur` the update array "source
    row times the product of the source's and the destination's factors". Scattering `uk` and scaling row `r` by its
    factor is scattering `ur`. -/
theorem scatter_scaled_rows {N F E w : Nat}
    (wf : ScatterDims.WF ⟨2, ![N, F]⟩ ⟨2, ![E, 1]⟩ ⟨2, ![E, F]⟩ [1] [0] [0] 1)
    (idx : IVec ⟨2, ![E, 1]⟩ w) (σ δ : Fin E → Fin N)
    (hδ : ∀ (e : Fin E) (r : Fin N), (idx (colIdx e)).toInt = (r.val : ℤ) → δ e = r)
    (xw : (⟨2, ![N, F]⟩ : Shape).Idx → EReal) (d : Fin N → EReal) (hd0 : ∀ r, 0 ≤ d r) (hdt : ∀ r, d r ≠ ⊤)
    (uk ur : (⟨2, ![E, F]⟩ : Shape).Idx → EReal)
    (huk : ∀ e f, uk (ix2 e f) = xw (ix2 (σ e) f) * d (σ e))
    (hur : ∀ e f, ur (ix2 e f) = xw (ix2 (σ e) f) * (d (σ e) * d (δ e)))
    (r : Fin N) (c : Fin F) :
    Ideal.hostScatterAdd (rowScatterDims N F E wf) (fun _ => (0 : EReal)) idx uk (ix2 r c) * d r
      = Ideal.hostScatterAdd (rowScatterDims N F E wf) (fun _ => (0 : EReal)) idx ur (ix2 r c) := by
  unfold Ideal.hostScatterAdd
  rw [zero_add, zero_add, sum_mul_of_nonneg_of_ne_top _ _ (hd0 r) (hdt r)]
  refine Finset.sum_congr rfl fun j hj => ?_
  obtain ⟨e, f, rfl⟩ : ∃ (e : Fin E) (f : Fin F), j = ix2 e f := ⟨j 0, j 1, eq_ix2 j⟩
  have hland := (rowScatter_resultIdx?_eq_some_iff wf idx e f r c).mp (Finset.mem_filter.mp hj).2
  rw [huk, hur, hδ e r hland.1, mul_assoc]

end Idealize.ShloMosaic.RowIdx

end
-- ==== Proof.Aggregate.lean ====
/-
  Message passing on whole arrays: gather the source rows, sum them at the destination rows.

  An edge `e` carries a source and a destination row number (32-bit words in a column). A gather reads the row number
  signed and clamps it into the array (`rowOf`); a segment sum reads it signed and drops the edge when it falls
  outside. `aggregate y src dst` is row `r ↦ ∑ over the edges landing on r of y[rowOf src e]`.

  The law that joins the kernel's arrangement to the reference's: scaling the SOURCE rows by their factor before the
  aggregation and the aggregated row by its own factor afterwards is aggregating the rows scaled by the product of the
  two factors — for factors that are nonnegative and finite (multiplication by such a factor distributes over
  every sum of extended reals), and provided the destination's gather row is the row the segment sum lands on.
-/
import proofs.«130009_j68779606278426_2_alg».proof.Proof.Spec
import proofs.«130009_j68779606278426_2_alg».proof.Proof.LibSegmentSum

noncomputable section

namespace Cert.Spec

open Idealize.ShloMosaic Idealize.ShloMosaic.ValueIdx Idealize.ShloMosaic.RowIdx
open scoped BigOperators

/-- A column of 850000 row numbers (800000 edges, then one self loop per node). -/
abbrev Col : Type := IVec ⟨2, ![850000, 1]⟩ 32

/-- The row a gather reads for edge `e`: the row number read signed and clamped into `[0, 49999]`. -/
def rowOf (col : Col) (e : Fin 850000) : Fin 50000 := clampRow 50000 (by decide) (col (colIdx e))

/-- The conditions on a row scatter's dimension numbers at these extents. -/
abbrev SegWF (F : Nat) : Prop :=
  ScatterDims.WF ⟨2, ![50000, F]⟩ ⟨2, ![850000, 1]⟩ ⟨2, ![850000, F]⟩ [1] [0] [0] 1

/-- The segment sum: row `r` of the result is the sum of the rows `u[e]` over the edges whose row number, read signed,
    is `r`. -/
def segSum {F : Nat} (wf : SegWF F) (dst : Col) (u : Arr 850000 F) : Arr 50000 F :=
  Ideal.hostScatterAdd (rowScatterDims 50000 F 850000 wf) (fun _ => (0 : EReal)) dst u

/-- Gather the source rows of `y`, sum them at the destination rows. -/
def aggregate {F : Nat} (wf : SegWF F) (y : Arr 50000 F) (src dst : Col) : Arr 50000 F :=
  segSum wf dst (fun j => y (ix2 (rowOf src (j 0)) (j 1)))

/-- THE LAYER LAW on whole arrays. -/
theorem aggregate_scaled {F : Nat} (wf : SegWF F) (xw : Arr 50000 F) (d : Fin 50000 → EReal)
    (hd0 : ∀ r, 0 ≤ d r) (hdt : ∀ r, d r ≠ ⊤) (src dst dstw : Col)
    (hw : ∀ (e : Fin 850000) (r : Fin 50000), (dst (colIdx e)).toInt = (r.val : ℤ) → rowOf dstw e = r)
    (r : Fin 50000) (c : Fin F) :
    aggregate wf (fun i => xw i * d (i 0)) src dst (ix2 r c) * d r
      = segSum wf dst (fun j => xw (ix2 (rowOf src (j 0)) (j 1)) * (d (rowOf src (j 0)) * d (rowOf dstw (j 0)))) (ix2 r c) :=
  scatter_scaled_rows wf dst (rowOf src) (rowOf dstw) hw xw d hd0 hdt _ _ (fun _ _ => rfl) (fun _ _ => rfl) r c

end Cert.Spec

end
-- ==== Proof.LibWrapIndex.lean ====
/-
  The wrap of a possibly negative row index, read at an element.

  An index vector `s` of 32-bit words is compared with zero as signed integers; where an entry is negative the array
  extent `n` is added to it, elsewhere it is kept. At an entry that is not negative the wrapped vector is therefore the
  entry itself. Both facts are stated for the way the operation is spelt on whole vectors: a `select` on the signed
  comparison with a broadcast zero, between the sum with a broadcast extent and the vector itself.
-/
import Idealize.ShloMosaic.Lib.Pipeline.Value
import Idealize.ShloMosaic.Lib.ValueIdx

namespace Idealize.ShloMosaic.RowIdx

open Idealize.ShloMosaic.ValueIdx

/-- A scalar repeated over a shape reads, at every index, the scalar's word. -/
theorem splat_apply {S : Shape} {w : ℕ} (b : BitVec w) (h : (⟨0, ![]⟩ : Shape).BroadcastsInDim S ![]) (e : S.Idx) :
    broadcastInDim S ![] h (constantI ⟨0, ![]⟩ w b) e = b :=
  broadcastInDim_apply _ h (constantI ⟨0, ![]⟩ w b) e ix0 fun a => a.elim0

/-- The signed comparison of a word with zero, as a condition bit. -/
theorem cmpi_slt_zero (x : BitVec 32) : IntOp.cmpi .slt x 0#32 = if x.toInt < 0 then 1#1 else 0#1 := by
  show BitVec.ofBool (x.slt 0#32) = _
  by_cases hx : x.toInt < 0
  · rw [if_pos hx, show x.slt 0#32 = true from by simp [BitVec.slt, hx]]; rfl
  · rw [if_neg hx, show x.slt 0#32 = false from by simp [BitVec.slt, hx]]; rfl

/-- The wrapped index vector at an element: the entry plus the extent where the entry is negative, the entry elsewhere. -/
theorem wrap_apply {S : Shape} (n : BitVec 32) (h : (⟨0, ![]⟩ : Shape).BroadcastsInDim S ![]) (s : IVec S 32) (e : S.Idx) :
    select (cmpi .slt s (broadcastInDim S ![] h (constantI ⟨0, ![]⟩ 32 0#32)))
        (addi s (broadcastInDim S ![] h (constantI ⟨0, ![]⟩ 32 n))) s e
      = if (s e).toInt < 0 then s e + n else s e := by
  show Scalar.select (IntOp.cmpi .slt (s e) (broadcastInDim S ![] h (constantI ⟨0, ![]⟩ 32 0#32) e))
      (IntOp.addi (s e) (broadcastInDim S ![] h (constantI ⟨0, ![]⟩ 32 n) e)) (s e) = _
  rw [splat_apply, splat_apply, cmpi_slt_zero]
  by_cases hx : (s e).toInt < 0
  · rw [if_pos hx, if_pos hx, select_one]; rfl
  · rw [if_neg hx, if_neg hx, select_zero]

/-- At an entry that is not negative the wrapped index vector is the entry. -/
theorem wrap_of_nonneg {S : Shape} (n : BitVec 32) (h : (⟨0, ![]⟩ : Shape).BroadcastsInDim S ![]) (s : IVec S 32) (e : S.Idx)
    (he : 0 ≤ (s e).toInt) :
    select (cmpi .slt s (broadcastInDim S ![] h (constantI ⟨0, ![]⟩ 32 0#32)))
        (addi s (broadcastInDim S ![] h (constantI ⟨0, ![]⟩ 32 n))) s e = s e :=
  (wrap_apply n h s e).trans (if_neg (not_lt.mpr he))

end Idealize.ShloMosaic.RowIdx
-- ==== Proof.LibInvSqrtDegree.lean ====
/-
  The inverse square root of a degree, guarded at zero, is a non-negative real.

  For an extended real `g` the guarded value is `1 / √g` where `g` is positive and `0` elsewhere. Where `g` is a positive
  real this is the inverse of a positive real square root; at `+∞` it is `0`; where `g` is not positive it is `0`. In every
  case the value is at least `0` and is not `+∞`. The vector form reads the guarded value entry by entry, for the way the
  operation is spelt on whole vectors: a `select` on the comparison with a broadcast zero, between the inverse square
  root and a broadcast zero.
-/
import Idealize.ShloMosaic.Lib.Pipeline.Value
import Idealize.ShloMosaic.Lib.ValueIdx
import Idealize.ShloMosaic.PureOps.Ideal.Laws

noncomputable section

namespace Idealize.ShloMosaic.RowIdx

open Idealize.ShloMosaic.ValueIdx

/-- The guarded inverse square root of an extended real: `1 / √g` where `g` is positive, `0` elsewhere. -/
def invSqrtPos (g : EReal) : EReal := Scalar.select (Ideal.cmp .ogt g 0) (Ideal.rsqrt g) 0

/-- It is at least zero and is not `+∞`. -/
theorem invSqrtPos_nonneg_ne_top (g : EReal) : 0 ≤ invSqrtPos g ∧ invSqrtPos g ≠ ⊤ := by
  unfold invSqrtPos
  by_cases hg : (0 : EReal) < g
  · have hc : Ideal.cmp .ogt g 0 = 1#1 := by
      show BitVec.ofBool (decide ((0 : EReal) < g)) = 1#1
      rw [decide_eq_true hg]; rfl
    rw [hc, select_one]
    induction g using EReal.rec with
    | bot => exact absurd hg (by simp)
    | top => rw [Ideal.rsqrt_top]; exact ⟨le_refl _, EReal.zero_ne_top⟩
    | coe r =>
      have hr : 0 < r := by exact_mod_cast hg
      rw [Ideal.rsqrt_coe, if_neg (not_lt.mpr hr.le), if_neg hr.ne']
      exact ⟨by exact_mod_cast inv_nonneg.mpr (Real.sqrt_nonneg r), EReal.coe_ne_top _⟩
  · have hc : Ideal.cmp .ogt g 0 = 0#1 := by
      show BitVec.ofBool (decide ((0 : EReal) < g)) = 0#1
      rw [decide_eq_false hg]; rfl
    rw [hc, select_zero]
    exact ⟨le_refl _, EReal.zero_ne_top⟩

theorem invSqrtPos_nonneg (g : EReal) : 0 ≤ invSqrtPos g := (invSqrtPos_nonneg_ne_top g).1
theorem invSqrtPos_ne_top (g : EReal) : invSqrtPos g ≠ ⊤ := (invSqrtPos_nonneg_ne_top g).2

/-- The guarded inverse square root of a vector of degrees, read at an entry. -/
theorem invSqrt_apply {S : Shape} (h : (⟨0, ![]⟩ : Shape).BroadcastsInDim S ![]) (deg : FVec Ideal S .f32) (i : S.Idx) :
    select (cmpf (F := Ideal) .ogt deg (broadcastInDim S ![] h (constant (F := Ideal) ⟨0, ![]⟩ .f32 0x00000000#32)))
        (Host.rsqrt (F := Ideal) deg)
        (broadcastInDim S ![] h (id (constant (F := Ideal) ⟨0, ![]⟩ .f32 0x00000000#32))) i
      = invSqrtPos (deg i) := by
  have hz : ∀ x : FVec Ideal ⟨0, ![]⟩ .f32, broadcastInDim S ![] h x i = x ix0 :=
    fun x => broadcastInDim_apply _ h x i ix0 fun a => a.elim0
  show Scalar.select (FloatOps.cmpf .ogt (deg i) (broadcastInDim S ![] h (constant (F := Ideal) ⟨0, ![]⟩ .f32 0x00000000#32) i))
      (FloatOps.hostUnary .rsqrt (deg i))
      (broadcastInDim S ![] h (id (constant (F := Ideal) ⟨0, ![]⟩ .f32 0x00000000#32)) i) = _
  rw [hz, hz]
  show Scalar.select (Ideal.cmp .ogt (deg i) (Ideal.ofBits .f32 0x00000000#32)) (Ideal.rsqrt (deg i)) (Ideal.ofBits .f32 0x00000000#32) = _
  rw [Ideal.ofBits_zero_f32]
  rfl

/-- Every entry of the guarded inverse square root of a vector of degrees is at least zero and is not `+∞`. -/
theorem invSqrt_nonneg_ne_top {S : Shape} (h : (⟨0, ![]⟩ : Shape).BroadcastsInDim S ![]) (deg : FVec Ideal S .f32) (i : S.Idx) :
    0 ≤ select (cmpf (F := Ideal) .ogt deg (broadcastInDim S ![] h (constant (F := Ideal) ⟨0, ![]⟩ .f32 0x00000000#32)))
        (Host.rsqrt (F := Ideal) deg)
        (broadcastInDim S ![] h (id (constant (F := Ideal) ⟨0, ![]⟩ .f32 0x00000000#32))) i
    ∧ select (cmpf (F := Ideal) .ogt deg (broadcastInDim S ![] h (constant (F := Ideal) ⟨0, ![]⟩ .f32 0x00000000#32)))
        (Host.rsqrt (F := Ideal) deg)
        (broadcastInDim S ![] h (id (constant (F := Ideal) ⟨0, ![]⟩ .f32 0x00000000#32))) i ≠ ⊤ := by
  rw [invSqrt_apply]
  exact invSqrtPos_nonneg_ne_top (deg i)

end Idealize.ShloMosaic.RowIdx

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.KernelAgg.lean ====
/-
  The idealized kernel's host stretches, read on whole arrays.

  Each aggregate of the kernel gathers the rows of a `50000 × F` array at the wrapped source row numbers and sums them
  into a zero array at the destination row numbers: that is the specification's `aggregate` at the wrapped source
  column and the destination column. The column of inverse square-root degrees reads the vector entry by entry; the
  two bias rows read their vectors entry by entry; every inverse square-root degree is a non-negative real; and a
  destination row number that, read signed, is a row `r` of the array is the row a gather reads after the wrap.
-/
import proofs.«130009_j68779606278426_2_alg».proof.Proof.KernelValue
import proofs.«130009_j68779606278426_2_alg».proof.Proof.Aggregate
import proofs.«130009_j68779606278426_2_alg».proof.Proof.LibRowGatherScatter
import proofs.«130009_j68779606278426_2_alg».proof.Proof.LibWrapIndex
import proofs.«130009_j68779606278426_2_alg».proof.Proof.LibInvSqrtDegree
import proofs.«130009_j68779606278426_2_alg».proof.Proof.LibBroadcastInDim
import proofs.«130009_j68779606278426_2_alg».proof.Proof.LibKeepdims
import Idealize.ShloMosaic.Lib.ValueIdx
import Idealize.ShloMosaic.Lib.ValueLayout
import Idealize.ShloMosaic.PureOps.Ideal.Laws

noncomputable section

namespace Cert.KernelIdeal.Out

open Idealize.ShloMosaic Idealize.ShloMosaic.ValueIdx Idealize.ShloMosaic.RowIdx
open Cert.KernelIdeal Cert.KernelIdeal.Gen
open Cert.Spec (Arr Col rowOf segSum SegWF)

/-! ## The gathers and the segment sums on variables -/

/-- The conditions on the two row scatters' dimension numbers. -/
theorem wfK128 : SegWF 128 := scatter_S50000x128_S850000x1_S850000x128_1_0_0_1.wf
theorem wfK64 : SegWF 64 := scatter_S50000x64_S850000x1_S850000x64_1_0_0_1.wf

/-- The gather of rows of a `50000 × 128` array at a column of row numbers, read at `(e, f)`. -/
theorem kGather128_apply (y : Arr 50000 128) (idx : Col) (e : Fin 850000) (f : Fin 128) :
    Host.gather gather_S50000x128_S850000x1_S850000x128_1_0_n_n_0_1_1128 y idx (ix2 e f) = y (ix2 (rowOf idx e) f) :=
  rowGather_apply (by decide) gather_S50000x128_S850000x1_S850000x128_1_0_n_n_0_1_1128.wf y idx e f

/-- The gather of rows of a `50000 × 64` array at a column of row numbers, read at `(e, f)`. -/
theorem kGather64_apply (y : Arr 50000 64) (idx : Col) (e : Fin 850000) (f : Fin 64) :
    Host.gather gather_S50000x64_S850000x1_S850000x64_1_0_n_n_0_1_164 y idx (ix2 e f) = y (ix2 (rowOf idx e) f) :=
  rowGather_apply (by decide) gather_S50000x64_S850000x1_S850000x64_1_0_n_n_0_1_164.wf y idx e f

/-- The accumulating scatter of rows into a zero `50000 × 128` array is the segment sum. -/
theorem kScatter128_eq (dst : Col) (u : Arr 850000 128) :
    Host.scatterAdd (F := Ideal) (φ := .f32) scatter_S50000x128_S850000x1_S850000x128_1_0_0_1 (fun _ => (0 : EReal)) dst u
      = segSum wfK128 dst u := rfl

/-- The accumulating scatter of rows into a zero `50000 × 64` array is the segment sum. -/
theorem kScatter64_eq (dst : Col) (u : Arr 850000 64) :
    Host.scatterAdd (F := Ideal) (φ := .f32) scatter_S50000x64_S850000x1_S850000x64_1_0_0_1 (fun _ => (0 : EReal)) dst u
      = segSum wfK64 dst u := rfl

/-- A zero scalar repeated over a shape is the zero array. -/
theorem zeroSplat_eq {t : Shape} (h : (⟨0, ![]⟩ : Shape).BroadcastsInDim t ![]) :
    (broadcastInDim t ![] h (constant (F := Ideal) ⟨0, ![]⟩ .f32 0x00000000#32) : t.Idx → EReal) = fun _ => (0 : EReal) :=
  funext fun i => (broadcastInDim_scalar_apply _ h i).trans Ideal.ofBits_zero_f32

/-! ## (K1) The aggregates -/

/-- The first layer's aggregate is the specification's, at the wrapped source column and the destination column. -/
theorem aggregate128_eq (y : FVec Ideal S50000x128 .bf16) (s d : IVec S850000 32) :
    aggregate128 y s d
      = Cert.Spec.aggregate wfK128 y (wrapCol s) (broadcastInDim S850000x1 ![0] bcast_S850000_S850000x1_0 d) := by
  unfold aggregate128 Cert.Spec.aggregate
  generalize wrapCol s = src
  generalize broadcastInDim S850000x1 ![0] bcast_S850000_S850000x1_0 d = dst
  have hu : (extf (F := Ideal) .f32 (Host.gather gather_S50000x128_S850000x1_S850000x128_1_0_n_n_0_1_1128 y src) bitsLt_bf16_f32 : Arr 850000 128)
      = fun j => y (ix2 (rowOf src (j 0)) (j 1)) := funext fun j => by
    obtain ⟨e, f, rfl⟩ : ∃ (e : Fin 850000) (f : Fin 128), j = ix2 e f := ⟨j 0, j 1, eq_ix2 j⟩
    exact kGather128_apply y src e f
  rw [zeroSplat_eq bcast_S_S50000x128, hu]
  exact kScatter128_eq dst _

/-- The second layer's aggregate is the specification's, at the wrapped source column and the destination column. -/
theorem aggregate64_eq (y : FVec Ideal S50000x64 .bf16) (s d : IVec S850000 32) :
    aggregate64 y s d
      = Cert.Spec.aggregate wfK64 y (wrapCol s) (broadcastInDim S850000x1 ![0] bcast_S850000_S850000x1_0 d) := by
  unfold aggregate64 Cert.Spec.aggregate
  generalize wrapCol s = src
  generalize broadcastInDim S850000x1 ![0] bcast_S850000_S850000x1_0 d = dst
  have hu : (extf (F := Ideal) .f32 (Host.gather gather_S50000x64_S850000x1_S850000x64_1_0_n_n_0_1_164 y src) bitsLt_bf16_f32 : Arr 850000 64)
      = fun j => y (ix2 (rowOf src (j 0)) (j 1)) := funext fun j => by
    obtain ⟨e, f, rfl⟩ : ∃ (e : Fin 850000) (f : Fin 64), j = ix2 e f := ⟨j 0, j 1, eq_ix2 j⟩
    exact kGather64_apply y src e f
  rw [zeroSplat_eq bcast_S_S50000x64, hu]
  exact kScatter64_eq dst _

/-! ## (K2) The column and the bias rows, entry by entry -/

/-- Entry `(r, 0)` of the column of inverse square-root degrees is entry `r` of the vector. -/
theorem dinvCol_apply (x1 : IVec S2x800000 32) (r : Fin 50000) :
    dinvCol x1 (ix2 r (0 : Fin 1)) = dinv x1 (ix1 r) := by
  unfold dinvCol
  generalize dinv x1 = v
  exact shapeCast_a_a1_apply v shapeCasts_S50000_S50000x1 r (0 : Fin 1)

/-- Entry `(0, k)` of the first bias row is entry `k` of the bias vector. -/
theorem biasRow128_apply (x3 : FVec Ideal S128 .f32) (k : Fin 128) :
    (shapeCast S1x128 x3 shapeCasts_S128_S1x128) (ix2 (0 : Fin 1) k) = x3 (ix1 k) :=
  shapeCast_a_1a_apply x3 shapeCasts_S128_S1x128 (0 : Fin 1) k

/-- Entry `(0, c)` of the second bias row is entry `c` of the bias vector. -/
theorem biasRow64_apply (x5 : FVec Ideal S64 .f32) (c : Fin 64) :
    (shapeCast S1x64 x5 shapeCasts_S64_S1x64) (ix2 (0 : Fin 1) c) = x5 (ix1 c) :=
  shapeCast_a_1a_apply x5 shapeCasts_S64_S1x64 (0 : Fin 1) c

/-! ## (K3) Every inverse square-root degree is a non-negative real -/

theorem dinv_nonneg_ne_top (x1 : IVec S2x800000 32) (r : Fin 50000) :
    0 ≤ dinv x1 (ix1 r) ∧ dinv x1 (ix1 r) ≠ ⊤ := by
  unfold dinv
  generalize degrees x1 = g
  exact invSqrt_nonneg_ne_top bcast_S_S50000 g (ix1 r)

/-! ## (K4) A destination row number that is a row of the array is the row its wrapped gather reads -/

theorem rowOf_wrapCol (d : IVec S850000 32) (e : Fin 850000) (r : Fin 50000)
    (h : ((broadcastInDim S850000x1 ![0] bcast_S850000_S850000x1_0 d) (colIdx e)).toInt = (r.val : ℤ)) :
    rowOf (wrapCol d) e = r := by
  have hd : (d (ix1 e)).toInt = (r.val : ℤ) := by
    rw [← broadcastInDim_a_a1_apply d bcast_S850000_S850000x1_0 e (0 : Fin 1)]; exact h
  unfold Cert.Spec.rowOf
  refine clampRow_of_toInt (by decide) _ r ?_
  unfold wrapCol
  rw [broadcastInDim_a_a1_apply,
    wrap_of_nonneg 50000#32 bcast_S_S850000 d (ix1 e) (by rw [hd]; exact Int.natCast_nonneg _)]
  exact hd

end Cert.KernelIdeal.Out

end
-- ==== Proof.RefDots.lean ====
/-
  The reference's two matrix products and its clamp at zero, read at one entry.

  Entry `(r, f)` of the first product is the sum over `k` of `x r k · w k f`; entry `(r, f)` of the second is the same sum
  with the clamped hidden array in place of `x`; and an entry of the clamped hidden array is the maximum of the
  unclamped entry and zero.
-/
import proofs.«130009_j68779606278426_2_alg».proof.Proof.RefRead
import proofs.«130009_j68779606278426_2_alg».proof.Proof.Spec
import Idealize.ShloMosaic.Lib.ValueIdx
import Idealize.ShloMosaic.PureOps.Ideal.Laws

noncomputable section

namespace Cert.ReferenceIdeal.RefDots

open Cert.ReferenceIdeal Cert.ReferenceIdeal.ReadP Idealize.ShloMosaic Idealize.ShloMosaic.ValueIdx
open scoped BigOperators

/-- The first product's operands are read at row `r`, column `k` and at row `k`, column `f`. -/
theorem lidx_v7 (r : Fin 50000) (f k : Fin 128) : lidx_main_v7 (ix2 r f) k = ix2 r k :=
  funext fun a => Fin.ext (by match a with | ⟨0, _⟩ => rfl | ⟨1, _⟩ => rfl)
theorem ridx_v7 (r : Fin 50000) (f k : Fin 128) : ridx_main_v7 (ix2 r f) k = ix2 k f :=
  funext fun a => Fin.ext (by match a with | ⟨0, _⟩ => rfl | ⟨1, _⟩ => rfl)

/-- Entry `(r, f)` of the first product. -/
theorem v7_apply (x0 : (⟨S50000x128, .f32⟩ : BufTy).Contents (Elt Ideal)) (x2 : (⟨S128x128, .f32⟩ : BufTy).Contents (Elt Ideal))
    (r : Fin 50000) (f : Fin 128) :
    val_main_v7 (F := Ideal) x0 x2 (ix2 r f) = ∑ k : Fin 128, x0 (ix2 r k) * x2 (ix2 k f) := by
  rw [val_main_v7_apply]
  simp only [lidx_v7, ridx_v7]

/-- The second product's operands are read at row `r`, column `k` and at row `k`, column `f`. -/
theorem lidx_v51 (r : Fin 50000) (f : Fin 64) (k : Fin 128) : lidx_main_v51 (ix2 r f) k = ix2 r k :=
  funext fun a => Fin.ext (by match a with | ⟨0, _⟩ => rfl | ⟨1, _⟩ => rfl)
theorem ridx_v51 (r : Fin 50000) (f : Fin 64) (k : Fin 128) : ridx_main_v51 (ix2 r f) k = ix2 k f :=
  funext fun a => Fin.ext (by match a with | ⟨0, _⟩ => rfl | ⟨1, _⟩ => rfl)

/-- Entry `(r, f)` of the second product, over the clamped hidden array. -/
theorem v51_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (r : Fin 50000) (f : Fin 64) :
    val_main_v51 (F := Ideal) x0 x1 x2 x3 x4 (ix2 r f)
      = ∑ k : Fin 128, val_main_v47 (F := Ideal) x0 x1 x2 x3 (ix2 r k) * x4 (ix2 k f) := by
  rw [val_main_v51_apply]
  generalize val_main_v47 (F := Ideal) x0 x1 x2 x3 = y
  simp only [lidx_v51, ridx_v51]

/-- An entry of the clamped hidden array is the unclamped entry or zero, whichever is larger. -/
theorem v47_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (r : Fin 50000) (k : Fin 128) :
    val_main_v47 (F := Ideal) x0 x1 x2 x3 (ix2 r k) = max (val_main_v46 (F := Ideal) x0 x1 x2 x3 (ix2 r k)) 0 := by
  rw [val_main_v47_apply, val_main_call1_v0_apply, val_main_call1_cst_apply]
  generalize val_main_v46 (F := Ideal) x0 x1 x2 x3 (ix2 r k) = y
  show max y (Ideal.ofBits .f32 0x00000000#32) = max y 0
  rw [Ideal.ofBits_zero_f32]

end Cert.ReferenceIdeal.RefDots

end
-- ==== Proof.RefLayer.lean ====
/-
  The reference's two graph-convolution layers, read at one entry.

  Each layer gathers, for every edge, the source row of a dense product and the two inverse square-root degrees of
  the edge's ends, multiplies the row by the product of the two factors, sums the scaled rows at the destination rows,
  and adds the bias row. Read at entry `(r, c)`: the segment sum, at `(r, c)`, of the array whose row `e` is the dense
  product's row `rowOf src e` scaled by `d (rowOf src' e) · d (rowOf dst' e)`, plus the bias at `c`. Nothing is rearranged
  here; the staged values are only read.
-/
import proofs.«130009_j68779606278426_2_alg».proof.Proof.RefRead
import proofs.«130009_j68779606278426_2_alg».proof.Proof.Spec
import proofs.«130009_j68779606278426_2_alg».proof.Proof.Aggregate
import proofs.«130009_j68779606278426_2_alg».proof.Proof.LibRowGatherScatter
import Idealize.ShloMosaic.Lib.ValueIdx
import Idealize.ShloMosaic.PureOps.Ideal.Laws

noncomputable section

namespace Cert.ReferenceIdeal.RefLayer

open Cert.ReferenceIdeal Cert.ReferenceIdeal.Gen Cert.ReferenceIdeal.ReadP
open Idealize.ShloMosaic Idealize.ShloMosaic.ValueIdx Idealize.ShloMosaic.RowIdx
open Cert.Spec (Arr Col rowOf segSum SegWF)
open scoped BigOperators

/-! ## The gathers and the segment sums on variables -/

/-- The conditions on the two row scatters' dimension numbers. -/
theorem wf128 : SegWF 128 := scatter_S50000x128_S850000x1_S850000x128_1_0_0_1.wf
theorem wf64 : SegWF 64 := scatter_S50000x64_S850000x1_S850000x64_1_0_0_1.wf

/-- The gather of rows of a `50000 × 128` array at a column of row numbers, read at `(e, f)`. -/
theorem gather128_apply (y : Arr 50000 128) (idx : Col) (e : Fin 850000) (f : Fin 128) :
    Host.gather gather_S50000x128_S850000x1_S850000x128_1_0_n_n_0_1_1128 y idx (ix2 e f) = y (ix2 (rowOf idx e) f) :=
  rowGather_apply (by decide) gather_S50000x128_S850000x1_S850000x128_1_0_n_n_0_1_1128.wf y idx e f

/-- The gather of rows of a `50000 × 64` array at a column of row numbers, read at `(e, f)`. -/
theorem gather64_apply (y : Arr 50000 64) (idx : Col) (e : Fin 850000) (f : Fin 64) :
    Host.gather gather_S50000x64_S850000x1_S850000x64_1_0_n_n_0_1_164 y idx (ix2 e f) = y (ix2 (rowOf idx e) f) :=
  rowGather_apply (by decide) gather_S50000x64_S850000x1_S850000x64_1_0_n_n_0_1_164.wf y idx e f

/-- The gather of entries of a length-50000 vector at a column of row numbers, read at `e`. -/
theorem gatherVec_apply (d : (⟨1, ![50000]⟩ : Shape).Idx → EReal) (idx : Col) (e : Fin 850000) :
    Host.gather gather_S50000_S850000x1_S850000_n_0_n_n_0_1_1 d idx (ix1 e) = d (ix1 (rowOf idx e)) :=
  vecGather_apply (by decide) gather_S50000_S850000x1_S850000_n_0_n_n_0_1_1.wf d idx e

/-- The accumulating scatter of rows into a zero `50000 × 128` array is the segment sum. -/
theorem scatter128_eq (dst : Col) (u : Arr 850000 128) :
    Host.scatterAdd (F := Ideal) (φ := .f32) scatter_S50000x128_S850000x1_S850000x128_1_0_0_1 (fun _ => (0 : EReal)) dst u
      = segSum wf128 dst u := rfl

/-- The accumulating scatter of rows into a zero `50000 × 64` array is the segment sum. -/
theorem scatter64_eq (dst : Col) (u : Arr 850000 64) :
    Host.scatterAdd (F := Ideal) (φ := .f32) scatter_S50000x64_S850000x1_S850000x64_1_0_0_1 (fun _ => (0 : EReal)) dst u
      = segSum wf64 dst u := rfl

/-! ## The first layer -/

theorem idx_v38_v39 (e : Fin 850000) (f : Fin 128) : idx_main_v38 (idx_main_v39 (ix2 e f)) = ix1 e :=
  funext fun a => Fin.ext (by match a with | ⟨0, _⟩ => rfl)
theorem idx_v44_v45 (r : Fin 50000) (k : Fin 128) : idx_main_v44 (idx_main_v45 (ix2 r k)) = ix1 k :=
  funext fun a => Fin.ext (by match a with | ⟨0, _⟩ => rfl)

/-- Row `e` of the first layer's update array: the gathered row of the dense product times the two gathered factors. -/
theorem upd1_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (e : Fin 850000) (f : Fin 128) :
    val_main_v40 (F := Ideal) x0 x1 x2 (ix2 e f)
      = val_main_v7 (F := Ideal) x0 x2 (ix2 (rowOf (val_main_v36 (F := Ideal) x1) e) f)
        * (val_main_v15 (F := Ideal) x1 (ix1 (rowOf (val_main_v21 (F := Ideal) x1) e))
           * val_main_v15 (F := Ideal) x1 (ix1 (rowOf (val_main_v28 (F := Ideal) x1) e))) := by
  rw [val_main_v40_apply, val_main_v39_apply, val_main_v38_apply, idx_v38_v39, val_main_v30_apply]
  unfold val_main_v37 val_main_v22 val_main_v29
  generalize val_main_v7 (F := Ideal) x0 x2 = y
  generalize val_main_v36 (F := Ideal) x1 = i36
  generalize val_main_v15 (F := Ideal) x1 = d
  generalize val_main_v21 (F := Ideal) x1 = i21
  generalize val_main_v28 (F := Ideal) x1 = i28
  exact congrArg₂ (· * ·) (gather128_apply y i36 e f) (congrArg₂ (· * ·) (gatherVec_apply d i21 e) (gatherVec_apply d i28 e))

/-- THE FIRST LAYER before its clamp, at entry `(r, k)`. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (r : Fin 50000) (k : Fin 128) :
    val_main_v46 (F := Ideal) x0 x1 x2 x3 (ix2 r k)
      = segSum wf128 (val_main_v42 (F := Ideal) x1)
          (fun j => val_main_v7 (F := Ideal) x0 x2 (ix2 (rowOf (val_main_v36 (F := Ideal) x1) (j 0)) (j 1))
            * (val_main_v15 (F := Ideal) x1 (ix1 (rowOf (val_main_v21 (F := Ideal) x1) (j 0)))
               * val_main_v15 (F := Ideal) x1 (ix1 (rowOf (val_main_v28 (F := Ideal) x1) (j 0))))) (ix2 r k)
        + x3 (ix1 k) := by
  have h45 : val_main_v45 (F := Ideal) x3 (ix2 r k) = x3 (ix1 k) := by
    rw [val_main_v45_apply, val_main_v44_apply, idx_v44_v45]
  have h41 : val_main_v41 (F := Ideal) = fun _ => (0 : EReal) := funext fun i => by
    rw [val_main_v41_apply, val_main_cst_8_apply]; exact Ideal.ofBits_zero_f32
  have h40 : val_main_v40 (F := Ideal) x0 x1 x2
      = (fun j => val_main_v7 (F := Ideal) x0 x2 (ix2 (rowOf (val_main_v36 (F := Ideal) x1) (j 0)) (j 1))
            * (val_main_v15 (F := Ideal) x1 (ix1 (rowOf (val_main_v21 (F := Ideal) x1) (j 0)))
               * val_main_v15 (F := Ideal) x1 (ix1 (rowOf (val_main_v28 (F := Ideal) x1) (j 0))))) := funext fun j => by
    obtain ⟨e, f, rfl⟩ : ∃ (e : Fin 850000) (f : Fin 128), j = ix2 e f := ⟨j 0, j 1, eq_ix2 j⟩
    exact upd1_apply x0 x1 x2 e f
  have h43 : val_main_v43 (F := Ideal) x0 x1 x2
      = segSum wf128 (val_main_v42 (F := Ideal) x1)
          (fun j => val_main_v7 (F := Ideal) x0 x2 (ix2 (rowOf (val_main_v36 (F := Ideal) x1) (j 0)) (j 1))
            * (val_main_v15 (F := Ideal) x1 (ix1 (rowOf (val_main_v21 (F := Ideal) x1) (j 0)))
               * val_main_v15 (F := Ideal) x1 (ix1 (rowOf (val_main_v28 (F := Ideal) x1) (j 0))))) := by
    unfold val_main_v43
    rw [h41, h40]
    generalize val_main_v42 (F := Ideal) x1 = dst
    exact scatter128_eq dst _
  rw [val_main_v46_apply]
  show val_main_v43 (F := Ideal) x0 x1 x2 (ix2 r k) + val_main_v45 (F := Ideal) x3 (ix2 r k) = _
  rw [h43, h45]

/-! ## The second layer -/

theorem idx_v82_v83 (e : Fin 850000) (f : Fin 64) : idx_main_v82 (idx_main_v83 (ix2 e f)) = ix1 e :=
  funext fun a => Fin.ext (by match a with | ⟨0, _⟩ => rfl)
theorem idx_v88_v89 (r : Fin 50000) (c : Fin 64) : idx_main_v88 (idx_main_v89 (ix2 r c)) = ix1 c :=
  funext fun a => Fin.ext (by match a with | ⟨0, _⟩ => rfl)

/-- Row `e` of the second layer's update array: the gathered row of the dense product times the two gathered factors. -/
theorem upd2_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (e : Fin 850000) (f : Fin 64) :
    val_main_v84 (F := Ideal) x0 x1 x2 x3 x4 (ix2 e f)
      = val_main_v51 (F := Ideal) x0 x1 x2 x3 x4 (ix2 (rowOf (val_main_v80 (F := Ideal) x1) e) f)
        * (val_main_v59 (F := Ideal) x1 (ix1 (rowOf (val_main_v65 (F := Ideal) x1) e))
           * val_main_v59 (F := Ideal) x1 (ix1 (rowOf (val_main_v72 (F := Ideal) x1) e))) := by
  rw [val_main_v84_apply, val_main_v83_apply, val_main_v82_apply, idx_v82_v83, val_main_v74_apply]
  unfold val_main_v81 val_main_v66 val_main_v73
  generalize val_main_v51 (F := Ideal) x0 x1 x2 x3 x4 = y
  generalize val_main_v80 (F := Ideal) x1 = i80
  generalize val_main_v59 (F := Ideal) x1 = d
  generalize val_main_v65 (F := Ideal) x1 = i65
  generalize val_main_v72 (F := Ideal) x1 = i72
  exact congrArg₂ (· * ·) (gather64_apply y i80 e f) (congrArg₂ (· * ·) (gatherVec_apply d i65 e) (gatherVec_apply d i72 e))

/-- THE SECOND LAYER (the logits), at entry `(r, c)`. -/
theorem layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (c : Fin 64) :
    val_main_v90 (F := Ideal) x0 x1 x2 x3 x4 x5 (ix2 r c)
      = segSum wf64 (val_main_v86 (F := Ideal) x1)
          (fun j => val_main_v51 (F := Ideal) x0 x1 x2 x3 x4 (ix2 (rowOf (val_main_v80 (F := Ideal) x1) (j 0)) (j 1))
            * (val_main_v59 (F := Ideal) x1 (ix1 (rowOf (val_main_v65 (F := Ideal) x1) (j 0)))
               * val_main_v59 (F := Ideal) x1 (ix1 (rowOf (val_main_v72 (F := Ideal) x1) (j 0))))) (ix2 r c)
        + x5 (ix1 c) := by
  have h89 : val_main_v89 (F := Ideal) x5 (ix2 r c) = x5 (ix1 c) := by
    rw [val_main_v89_apply, val_main_v88_apply, idx_v88_v89]
  have h85 : val_main_v85 (F := Ideal) = fun _ => (0 : EReal) := funext fun i => by
    rw [val_main_v85_apply, val_main_cst_19_apply]; exact Ideal.ofBits_zero_f32
  have h84 : val_main_v84 (F := Ideal) x0 x1 x2 x3 x4
      = (fun j => val_main_v51 (F := Ideal) x0 x1 x2 x3 x4 (ix2 (rowOf (val_main_v80 (F := Ideal) x1) (j 0)) (j 1))
            * (val_main_v59 (F := Ideal) x1 (ix1 (rowOf (val_main_v65 (F := Ideal) x1) (j 0)))
               * val_main_v59 (F := Ideal) x1 (ix1 (rowOf (val_main_v72 (F := Ideal) x1) (j 0))))) := funext fun j => by
    obtain ⟨e, f, rfl⟩ : ∃ (e : Fin 850000) (f : Fin 64), j = ix2 e f := ⟨j 0, j 1, eq_ix2 j⟩
    exact upd2_apply x0 x1 x2 x3 x4 e f
  have h87 : val_main_v87 (F := Ideal) x0 x1 x2 x3 x4
      = segSum wf64 (val_main_v86 (F := Ideal) x1)
          (fun j => val_main_v51 (F := Ideal) x0 x1 x2 x3 x4 (ix2 (rowOf (val_main_v80 (F := Ideal) x1) (j 0)) (j 1))
            * (val_main_v59 (F := Ideal) x1 (ix1 (rowOf (val_main_v65 (F := Ideal) x1) (j 0)))
               * val_main_v59 (F := Ideal) x1 (ix1 (rowOf (val_main_v72 (F := Ideal) x1) (j 0))))) := by
    unfold val_main_v87
    rw [h85, h84]
    generalize val_main_v86 (F := Ideal) x1 = dst
    exact scatter64_eq dst _
  rw [val_main_v90_apply]
  show val_main_v87 (F := Ideal) x0 x1 x2 x3 x4 (ix2 r c) + val_main_v89 (F := Ideal) x5 (ix2 r c) = _
  rw [h87, h89]

end Cert.ReferenceIdeal.RefLayer

end
-- ==== Proof.RefLogSoftmax.lean ====
/-
  The reference's row-wise log-softmax of its logits is the specification's.

  The reference takes each row's maximum over the 64 lanes starting from minus infinity, takes the larger of that and
  minus infinity (which changes nothing), subtracts it from the row, and then subtracts the logarithm of the row's sum,
  started from zero, of the exponentials of those differences. The logits themselves stay one unopened array throughout.
-/
import proofs.«130009_j68779606278426_2_alg».proof.Proof.Spec
import proofs.«130009_j68779606278426_2_alg».proof.Proof.RefRead
import Idealize.ShloMosaic.Lib.ValueIdx
import Idealize.ShloMosaic.PureOps.Ideal.Laws
import Idealize.ShloMosaic.PureOps.Reduce

set_option maxRecDepth 16384

noncomputable section

namespace Cert.ReferenceIdeal.RefLogSoftmax

open Idealize.ShloMosaic Idealize.ShloMosaic.ValueIdx
open Cert.ReferenceIdeal Cert.ReferenceIdeal.Gen Cert.ReferenceIdeal.ReadP
open scoped BigOperators

/-- Dropping the lane axis of a 50000 x 64 array leaves its 50000 rows. -/
theorem hred : (⟨2, ![50000, 64]⟩ : Shape).Reduces [1] ⟨1, ![50000]⟩ := by decide

/-- Inserting lane c into the row index r gives the entry (r, c). -/
theorem lift_ix1 (r : Fin 50000) (c : Fin 64) : hred.lift (ix1 r) c = ix2 r c := by
  funext a; apply Fin.ext
  match a with
  | ⟨0, _⟩ => rfl
  | ⟨1, _⟩ => rfl

/-- The word the maximum starts from is minus infinity. -/
theorem negInf_word : (FloatOps.ofBits (F := Ideal) .f32 0xFF800000#32 : EReal) = ⊥ := by
  show Ideal.ofBits .f32 0xFF800000#32 = ⊥
  simp [Ideal.ofBits, Ideal.ieee]

/-- The host's maximum over the lanes, started from minus infinity, is at row r the row's maximum. -/
theorem hostRowMax (z : Cert.Spec.Arr 50000 64) (init : (⟨0, ![]⟩ : Shape).Idx → EReal)
    (h' : (⟨2, ![50000, 64]⟩ : Shape).ReducesTo [1] ⟨1, ![50000]⟩) (hu : 0 < (⟨0, ![]⟩ : Shape).numel)
    (hinit : init (Shape.Idx.first hu) = ⊥) (r : Fin 50000) :
    Host.reduce (FloatOps.maximumf (F := Ideal) (φ := .f32)) z init h' hu (ix1 r) = Cert.Spec.rowMax z r := by
  refine (Host.reduce_eq_fold_single (FloatOps.maximumf (F := Ideal) (φ := .f32)) z init h' hred hu (ix1 r)).trans ?_
  rw [hinit]
  unfold Cert.Spec.rowMax
  have e : (fun c : Fin 64 => z (hred.lift (ix1 r) c)) = fun c => z (ix2 r c) :=
    funext fun c => congrArg z (lift_ix1 r c)
  exact congrArg (fun f : Fin 64 → EReal => (Finset.univ : Finset (Fin 64)).fold max (⊥ : EReal) f) e

/-- The maximum the reference subtracts, repeated along the row, is the row's maximum of the logits: the larger of
    minus infinity and the row's maximum is the row's maximum. -/
theorem rowMaxStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (q : Fin 64) :
    val_main_call3_v4 (F := Ideal) x0 x1 x2 x3 x4 x5 (ix2 r q) = Cert.Spec.rowMax (val_main_v90 (F := Ideal) x0 x1 x2 x3 x4 x5) r := by
  have hidx : idx_main_call3_v3 (idx_main_call3_v4 (ix2 r q)) = ix1 r :=
    funext fun a => Fin.ext (by match a with | ⟨0, _⟩ => rfl)
  rw [val_main_call3_v4_apply, val_main_call3_v3_apply, val_main_call3_v2_apply, val_main_call3_v1_apply,
    val_main_call3_cst_0_apply, hidx]
  unfold val_main_call3_v0
  generalize val_main_v90 (F := Ideal) x0 x1 x2 x3 x4 x5 = z
  rw [hostRowMax z _ reducesTo_S50000x64_S50000_d1 h_S_ (by rw [val_main_call3_cst_apply]; exact negInf_word) r, negInf_word]
  exact max_eq_right bot_le

/-- The reference's shifted logits: each entry less its row's maximum. -/
theorem shiftedStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (q : Fin 64) :
    val_main_call3_v5 (F := Ideal) x0 x1 x2 x3 x4 x5 (ix2 r q)
      = val_main_v90 (F := Ideal) x0 x1 x2 x3 x4 x5 (ix2 r q) - Cert.Spec.rowMax (val_main_v90 (F := Ideal) x0 x1 x2 x3 x4 x5) r := by
  rw [val_main_call3_v5_apply, rowMaxStage]
  rfl

/-- The host's logarithm of zero plus a sum of the host's exponentials is the logarithm of the sum of exponentials. -/
theorem logOfSum (f : Fin 64 → EReal) :
    FloatOps.hostUnary (F := Ideal) (φ := .f32) .log
        (FloatOps.ofBits (F := Ideal) .f32 0x00000000#32 + ∑ k : Fin 64, FloatOps.hostUnary (F := Ideal) (φ := .f32) .exp (f k))
      = Ideal.log (∑ k : Fin 64, Ideal.exp (f k)) := by
  simp only [Ideal.hostUnary_log_def, Ideal.hostUnary_exp_def, Ideal.ofBits_def, Ideal.ofBits_zero_f32, zero_add]

/-- What the reference subtracts last, at (r, q): the logarithm of the row statistic of row r (two broadcasts of a
    column kept per row read one entry each). -/
theorem outerStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (q : Fin 64) :
    val_main_call3_v10 (F := Ideal) x0 x1 x2 x3 x4 x5 (ix2 r q)
      = FloatOps.hostUnary (F := Ideal) (φ := .f32) .log (val_main_call3_v7 (F := Ideal) x0 x1 x2 x3 x4 x5 (ix1 r)) := by
  have h8 : idx_main_call3_v8 (idx_main_call3_v10 (ix2 r q)) = ix1 r :=
    funext fun a => Fin.ext (by match a with | ⟨0, _⟩ => rfl)
  rw [val_main_call3_v10_apply, val_main_call3_v9_apply, val_main_call3_v8_apply, h8]

/-- The row statistic of row r: zero plus the sum over the 64 lanes of the exponentials' array. -/
theorem sumStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) :
    val_main_call3_v7 (F := Ideal) x0 x1 x2 x3 x4 x5 (ix1 r)
      = FloatOps.ofBits (F := Ideal) .f32 0x00000000#32 + ∑ k : Fin 64, val_main_call3_v6 (F := Ideal) x0 x1 x2 x3 x4 x5 (idx_main_call3_v7 (ix1 r) k) := by
  rw [val_main_call3_v7_apply, val_main_call3_cst_1_apply]

/-- One summand: the exponential of the shifted logit at (r, k). -/
theorem summandStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (k : Fin 64) :
    val_main_call3_v6 (F := Ideal) x0 x1 x2 x3 x4 x5 (idx_main_call3_v7 (ix1 r) k)
      = FloatOps.hostUnary (F := Ideal) (φ := .f32) .exp (val_main_v90 (F := Ideal) x0 x1 x2 x3 x4 x5 (ix2 r k) - Cert.Spec.rowMax (val_main_v90 (F := Ideal) x0 x1 x2 x3 x4 x5) r) := by
  have hk : idx_main_call3_v7 (ix1 r) k = ix2 r k :=
    funext fun a => Fin.ext (by match a with | ⟨0, _⟩ => rfl | ⟨1, _⟩ => rfl)
  rw [hk, val_main_call3_v6_apply, shiftedStage]

/-- The logarithm the reference subtracts, repeated along the row: of the row's sum, started from zero, of the
    exponentials of the shifted logits. -/
theorem logSumStage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 50000) (q : Fin 64) :
    val_main_call3_v10 (F := Ideal) x0 x1 x2 x3 x4 x5 (ix2 r q)
      = Ideal.log (∑ k : Fin 64, Ideal.exp (val_main_v90 (F := Ideal) x0 x1 x2 x3 x4 x5 (ix2 r k) - Cert.Spec.rowMax (val_main_v90 (F := Ideal) x0 x1 x2 x3 x4 x5) r)) := by
  have hs : (∑ k : Fin 64, val_main_call3_v6 (F := Ideal) x0 x1 x2 x3 x4 x5 (idx_main_call3_v7 (ix1 r) k))
      = ∑ k : Fin 64, FloatOps.hostUnary (F := Ideal) (φ := .f32) .exp (val_main_v90 (F := Ideal) x0 x1 x2 x3 x4 x5 (ix2 r k) - Cert.Spec.rowMax (val_main_v90 (F := Ideal) x0 x1 x2 x3 x4 x5) r) :=
    Finset.sum_congr rfl fun k _ => summandStage x0 x1 x2 x3 x4 x5 r k
  rw [outerStage, sumStage, hs]
  exact logOfSum (fun k => val_main_v90 (F := Ideal) x0 x1 x2 x3 x4 x5 (ix2 r k) - Cert.Spec.rowMax (val_main_v90 (F := Ideal) x0 x1 x2 x3 x4 x5) r)

/-- THE REFERENCE'S LOG-SOFTMAX is the specification's row-wise log-softmax of the reference's logits. -/
theorem ref_logSoftmax (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v91 (F := Ideal) x0 x1 x2 x3 x4 x5 = Cert.Spec.logSoftmaxRows (val_main_v90 (F := Ideal) x0 x1 x2 x3 x4 x5) := by
  funext i
  obtain ⟨r, q, rfl⟩ : ∃ (r : Fin 50000) (q : Fin 64), i = ix2 r q := ⟨i 0, i 1, eq_ix2 i⟩
  rw [val_main_v91_apply, shiftedStage, logSumStage]
  generalize val_main_v90 (F := Ideal) x0 x1 x2 x3 x4 x5 = z
  rfl

end Cert.ReferenceIdeal.RefLogSoftmax
end
-- ==== Proof.Identify.lean ====
/-
  The kernel's index and degree terms are the reference's, as whole arrays of any edge list.

  Both programs build, from the two rows of the edge list, the source and the destination row numbers (each row followed
  by every node once, the self loops), the column of gather indices from either (a negative row number moved up by the
  number of nodes), the destination rows as a column of scatter indices, the degrees (how many destination rows name
  each node) and their inverse square roots (zero where the degree is not positive). Each program spells the shapes
  and the operations' dimension records under its own names; the operations and their operands are the same, so each
  equality holds by definition. They are taken one operation at a time, each level rewritten with the level below,
  so that no step ever looks inside a sum over the 850000 rows.
-/
import proofs.«130009_j68779606278426_2_alg».proof.Proof.KernelValue
import proofs.«130009_j68779606278426_2_alg».proof.Proof.RefRead

set_option maxRecDepth 16384

noncomputable section

namespace Cert.Identify

open Idealize.ShloMosaic
open Cert.ReferenceIdeal.ReadP
open Cert.KernelIdeal.Out (srcRows dstRows degrees dinv wrapCol)

/-! ## The row numbers -/

/-- The kernel's source row numbers are the reference's first joined column … -/
theorem srcRows_v5 (x1 : IVec Cert.KernelIdeal.S2x800000 32) : srcRows x1 = val_main_v5 (F := Ideal) x1 := by
  unfold srcRows val_main_v5 val_main_v1 val_main_v0 val_main_v4
  rfl

/-- … and its second copy, joined with the second list of node numbers. -/
theorem srcRows_v49 (x1 : IVec Cert.KernelIdeal.S2x800000 32) : srcRows x1 = val_main_v49 (F := Ideal) x1 := by
  unfold srcRows val_main_v49 val_main_v1 val_main_v0 val_main_v48
  rfl

/-- The kernel's destination row numbers are the reference's second joined column … -/
theorem dstRows_v6 (x1 : IVec Cert.KernelIdeal.S2x800000 32) : dstRows x1 = val_main_v6 (F := Ideal) x1 := by
  unfold dstRows val_main_v6 val_main_v3 val_main_v2 val_main_v4
  rfl

/-- … and its second copy. -/
theorem dstRows_v50 (x1 : IVec Cert.KernelIdeal.S2x800000 32) : dstRows x1 = val_main_v50 (F := Ideal) x1 := by
  unfold dstRows val_main_v50 val_main_v3 val_main_v2 val_main_v48
  rfl

/-! ## The wrapped columns of gather indices

The reference recomputes the same column — a negative row number moved up by the number of nodes, then viewed as a
column — each time it gathers: four times from the source rows, twice from the destination rows. -/

/-- The wrapped source column, first copy. -/
theorem wrapSrc_v21 (x1 : IVec Cert.KernelIdeal.S2x800000 32) : wrapCol (srcRows x1) = val_main_v21 (F := Ideal) x1 := by
  unfold val_main_v21 val_main_v20 val_main_v19 val_main_v18 val_main_c_3 val_main_v17 val_main_v16 val_main_c
  rw [← srcRows_v5 x1]
  unfold wrapCol
  rfl

/-- The wrapped source column, second copy. -/
theorem wrapSrc_v36 (x1 : IVec Cert.KernelIdeal.S2x800000 32) : wrapCol (srcRows x1) = val_main_v36 (F := Ideal) x1 := by
  unfold val_main_v36 val_main_v35 val_main_v34 val_main_v33 val_main_c_7 val_main_v32 val_main_v31 val_main_c_6
  rw [← srcRows_v5 x1]
  unfold wrapCol
  rfl

/-- The wrapped source column, third copy (from the second joined column). -/
theorem wrapSrc_v65 (x1 : IVec Cert.KernelIdeal.S2x800000 32) : wrapCol (srcRows x1) = val_main_v65 (F := Ideal) x1 := by
  unfold val_main_v65 val_main_v64 val_main_v63 val_main_v62 val_main_c_14 val_main_v61 val_main_v60 val_main_c_13
  rw [← srcRows_v49 x1]
  unfold wrapCol
  rfl

/-- The wrapped source column, fourth copy. -/
theorem wrapSrc_v80 (x1 : IVec Cert.KernelIdeal.S2x800000 32) : wrapCol (srcRows x1) = val_main_v80 (F := Ideal) x1 := by
  unfold val_main_v80 val_main_v79 val_main_v78 val_main_v77 val_main_c_18 val_main_v76 val_main_v75 val_main_c_17
  rw [← srcRows_v49 x1]
  unfold wrapCol
  rfl

/-- The wrapped destination column, first copy. -/
theorem wrapDst_v28 (x1 : IVec Cert.KernelIdeal.S2x800000 32) : wrapCol (dstRows x1) = val_main_v28 (F := Ideal) x1 := by
  unfold val_main_v28 val_main_v27 val_main_v26 val_main_v25 val_main_c_5 val_main_v24 val_main_v23 val_main_c_4
  rw [← dstRows_v6 x1]
  unfold wrapCol
  rfl

/-- The wrapped destination column, second copy. -/
theorem wrapDst_v72 (x1 : IVec Cert.KernelIdeal.S2x800000 32) : wrapCol (dstRows x1) = val_main_v72 (F := Ideal) x1 := by
  unfold val_main_v72 val_main_v71 val_main_v70 val_main_v69 val_main_c_16 val_main_v68 val_main_v67 val_main_c_15
  rw [← dstRows_v50 x1]
  unfold wrapCol
  rfl

/-! ## The raw destination column -/

/-- The destination rows viewed as a column of scatter indices, first copy … -/
theorem dstCol_v42 (x1 : IVec Cert.KernelIdeal.S2x800000 32) :
    broadcastInDim Cert.KernelIdeal.S850000x1 ![0] Cert.KernelIdeal.Facts₀.bcast_S850000_S850000x1_0 (dstRows x1)
      = val_main_v42 (F := Ideal) x1 := by
  unfold val_main_v42
  rw [← dstRows_v6 x1]

/-- … and second copy. -/
theorem dstCol_v86 (x1 : IVec Cert.KernelIdeal.S2x800000 32) :
    broadcastInDim Cert.KernelIdeal.S850000x1 ![0] Cert.KernelIdeal.Facts₀.bcast_S850000_S850000x1_0 (dstRows x1)
      = val_main_v86 (F := Ideal) x1 := by
  unfold val_main_v86
  rw [← dstRows_v50 x1]

/-! ## The degrees and their inverse square roots

Level by level: the column of destination rows (above), then the count of the rows naming each node, then the
comparison with zero and the choice between the inverse square root and zero. -/

/-- The degrees are the reference's first count … -/
theorem degrees_v11 (x1 : IVec Cert.KernelIdeal.S2x800000 32) : degrees x1 = val_main_v11 (F := Ideal) x1 := by
  unfold val_main_v11 val_main_v10 val_main_v9 val_main_cst_0 val_main_v8 val_main_cst
  rw [← dstRows_v6 x1]
  unfold degrees
  rfl

/-- … and its second. -/
theorem degrees_v55 (x1 : IVec Cert.KernelIdeal.S2x800000 32) : degrees x1 = val_main_v55 (F := Ideal) x1 := by
  unfold val_main_v55 val_main_v54 val_main_v53 val_main_cst_10 val_main_v52 val_main_cst_9
  rw [← dstRows_v50 x1]
  unfold degrees
  rfl

/-- The inverse square-root degrees, zero where the degree is not positive, are the reference's first such column … -/
theorem dinv_v15 (x1 : IVec Cert.KernelIdeal.S2x800000 32) : dinv x1 = val_main_v15 (F := Ideal) x1 := by
  unfold val_main_v15 val_main_v13 val_main_v12 val_main_cst_1 val_main_v14 val_main_call0_v1 val_main_call0_v0 val_main_cst_2
  rw [← degrees_v11 x1]
  unfold dinv
  rfl

/-- … and its second. -/
theorem dinv_v59 (x1 : IVec Cert.KernelIdeal.S2x800000 32) : dinv x1 = val_main_v59 (F := Ideal) x1 := by
  unfold val_main_v59 val_main_v57 val_main_v56 val_main_cst_11 val_main_v58 val_main_call2_v1 val_main_call2_v0 val_main_cst_12
  rw [← degrees_v55 x1]
  unfold dinv
  rfl

end Cert.Identify
end
-- ==== Proof.Bridge.lean ====
/-
  The idealized kernel and the reference compute the same array.

  Both end in the row-wise log-softmax of their logits, so it is enough that the logits agree entry by entry. The
  kernel scales the source rows of each dense product by their inverse square-root degree before the aggregation and
  the aggregated row by its own afterwards; the reference scales every gathered row by the product of the two
  factors and aggregates once. The inverse square-root degrees are non-negative reals, so multiplication by them
  distributes over the aggregation's sums: the two arrangements agree, first for the hidden layer before its clamp,
  then, through the clamp and the second dense product, for the logits.
-/
import proofs.«130009_j68779606278426_2_alg».proof.Proof.KernelValue
import proofs.«130009_j68779606278426_2_alg».proof.Proof.KernelAgg
import proofs.«130009_j68779606278426_2_alg».proof.Proof.Aggregate
import proofs.«130009_j68779606278426_2_alg».proof.Proof.RefRead
import proofs.«130009_j68779606278426_2_alg».proof.Proof.RefDots
import proofs.«130009_j68779606278426_2_alg».proof.Proof.RefLayer
import proofs.«130009_j68779606278426_2_alg».proof.Proof.RefLogSoftmax
import proofs.«130009_j68779606278426_2_alg».proof.Proof.Identify
import Idealize.ShloMosaic.Lib.ValueIdx
import Idealize.ShloMosaic.PureOps.Ideal.Laws

noncomputable section

namespace Cert.Bridge

open Idealize.ShloMosaic Idealize.ShloMosaic.ValueIdx Idealize.ShloMosaic.RowIdx
open Cert.Spec (Arr Col rowOf segSum SegWF)
open Cert.KernelIdeal.Out Cert.ReferenceIdeal.ReadP Cert.ReferenceIdeal.RefDots Cert.ReferenceIdeal.RefLayer Cert.ReferenceIdeal.RefLogSoftmax
open scoped BigOperators

/-! ## The two dense products as functions of whole arrays -/

/-- `x · w`, entry by entry. -/
def xw1 (x : Arr 50000 128) (w : Arr 128 128) : Arr 50000 128 :=
  fun i => ∑ k : Fin 128, x (ix2 (i 0) k) * w (ix2 k (i 1))

/-- `max (a · diag d + b) 0 · w`, entry by entry, for a vector `d` of row factors and a bias vector `b`. -/
def xw2 (a : Arr 50000 128) (dv : (⟨1, ![50000]⟩ : Shape).Idx → EReal) (b : (⟨1, ![128]⟩ : Shape).Idx → EReal)
    (w : Arr 128 64) : Arr 50000 64 :=
  fun i => ∑ k : Fin 128, max (a (ix2 (i 0) k) * dv (ix1 (i 0)) + b (ix1 k)) 0 * w (ix2 k (i 1))

/-- The first layer's dense part is `x · w` with row `r` scaled by `d r`. -/
theorem scaledProduct_eq (x : Arr 50000 128) (w : Arr 128 128) (dcol : Arr 50000 1)
    (dv : (⟨1, ![50000]⟩ : Shape).Idx → EReal) (hcol : ∀ r : Fin 50000, dcol (ix2 r (0 : Fin 1)) = dv (ix1 r)) :
    Cert.Spec.scaledProduct x w dcol = fun i => xw1 x w i * dv (ix1 (i 0)) := funext fun i => by
  obtain ⟨r, c, rfl⟩ : ∃ (r : Fin 50000) (c : Fin 128), i = ix2 r c := ⟨i 0, i 1, eq_ix2 i⟩
  show (∑ k : Fin 128, x (ix2 r k) * w (ix2 k c)) * dcol (ix2 r (0 : Fin 1))
      = (∑ k : Fin 128, x (ix2 r k) * w (ix2 k c)) * dv (ix1 r)
  rw [hcol]

/-- The second layer's dense part is `max (a · diag d + b) 0 · w` with row `r` scaled by `d r`. -/
theorem hiddenScaled_eq (a : Arr 50000 128) (dcol : Arr 50000 1) (brow : Arr 1 128) (w : Arr 128 64)
    (dv : (⟨1, ![50000]⟩ : Shape).Idx → EReal) (b : (⟨1, ![128]⟩ : Shape).Idx → EReal)
    (hcol : ∀ r : Fin 50000, dcol (ix2 r (0 : Fin 1)) = dv (ix1 r)) (hb : ∀ k : Fin 128, brow (ix2 (0 : Fin 1) k) = b (ix1 k)) :
    Cert.Spec.hiddenScaled a dcol brow w = fun i => xw2 a dv b w i * dv (ix1 (i 0)) := funext fun i => by
  obtain ⟨r, c, rfl⟩ : ∃ (r : Fin 50000) (c : Fin 64), i = ix2 r c := ⟨i 0, i 1, eq_ix2 i⟩
  show (∑ k : Fin 128, max (a (ix2 r k) * dcol (ix2 r (0 : Fin 1)) + brow (ix2 (0 : Fin 1) k)) 0 * w (ix2 k c)) * dcol (ix2 r (0 : Fin 1))
      = (∑ k : Fin 128, max (a (ix2 r k) * dv (ix1 r) + b (ix1 k)) 0 * w (ix2 k c)) * dv (ix1 r)
  rw [hcol]
  refine congrArg (· * dv (ix1 r)) (Finset.sum_congr rfl fun k _ => ?_)
  rw [hb]

/-- ONE LAYER, on variables: aggregating the rows scaled by their own factor and scaling the aggregated row by its
    factor is the segment sum of the rows scaled by the product of the two factors. -/
theorem scaled_layer {F : Nat} (wf wf' : SegWF F) (xw : Arr 50000 F) (dv : (⟨1, ![50000]⟩ : Shape).Idx → EReal)
    (hd : ∀ r : Fin 50000, 0 ≤ dv (ix1 r) ∧ dv (ix1 r) ≠ ⊤) (src dst dstw : Col)
    (hw : ∀ (e : Fin 850000) (r : Fin 50000), (dst (colIdx e)).toInt = (r.val : ℤ) → rowOf dstw e = r)
    (r : Fin 50000) (c : Fin F) :
    Cert.Spec.aggregate wf (fun i => xw i * dv (ix1 (i 0))) src dst (ix2 r c) * dv (ix1 r)
      = segSum wf' dst (fun j => xw (ix2 (rowOf src (j 0)) (j 1)) * (dv (ix1 (rowOf src (j 0))) * dv (ix1 (rowOf dstw (j 0))))) (ix2 r c) :=
  Cert.Spec.aggregate_scaled wf xw (fun r => dv (ix1 r)) (fun r => (hd r).1) (fun r => (hd r).2) src dst dstw hw r c

/-! ## The hidden layer before its clamp -/

/-- The reference's first product is `x · w`. -/
theorem v7_eq (x0 : FVec Ideal Cert.KernelIdeal.S50000x128 .f32) (x2 : FVec Ideal Cert.KernelIdeal.S128x128 .f32) :
    val_main_v7 (F := Ideal) x0 x2 = xw1 x0 x2 := funext fun i => by
  obtain ⟨a, b, rfl⟩ : ∃ (a : Fin 50000) (b : Fin 128), i = ix2 a b := ⟨i 0, i 1, eq_ix2 i⟩
  exact v7_apply x0 x2 a b

/-- The reference's hidden layer before its clamp, at entry `(r, k)`, is the kernel's first aggregate with row `r`
    scaled by its factor, plus the bias. -/
theorem hidden_eq (x0 : FVec Ideal Cert.KernelIdeal.S50000x128 .f32) (x1 : IVec Cert.KernelIdeal.S2x800000 32) (x2 : FVec Ideal Cert.KernelIdeal.S128x128 .f32) (x3 : FVec Ideal Cert.KernelIdeal.S128 .f32) (r : Fin 50000) (k : Fin 128) :
    val_main_v46 (F := Ideal) x0 x1 x2 x3 (ix2 r k)
      = aggregate128 (Cert.Spec.scaledProduct x0 x2 (dinvCol x1)) (srcRows x1) (dstRows x1) (ix2 r k) * dinv x1 (ix1 r)
        + x3 (ix1 k) := by
  rw [layer1, aggregate128_eq, scaledProduct_eq x0 x2 (dinvCol x1) (dinv x1) (dinvCol_apply x1), v7_eq]
  rw [← Cert.Identify.wrapSrc_v36 x1, ← Cert.Identify.wrapSrc_v21 x1, ← Cert.Identify.wrapDst_v28 x1,
    ← Cert.Identify.dstCol_v42 x1, ← Cert.Identify.dinv_v15 x1]
  have hd := dinv_nonneg_ne_top x1
  have hw := rowOf_wrapCol (dstRows x1)
  generalize dinv x1 = dv at hd ⊢
  generalize wrapCol (srcRows x1) = src
  generalize wrapCol (dstRows x1) = dstw at hw ⊢
  generalize (broadcastInDim Cert.KernelIdeal.S850000x1 ![0] Cert.KernelIdeal.Facts₀.bcast_S850000_S850000x1_0 (dstRows x1)) = dst at hw ⊢
  generalize xw1 x0 x2 = xw
  exact congrArg (· + x3 (ix1 k)) (scaled_layer wfK128 wf128 xw dv hd src dst dstw hw r k).symm

/-! ## The logits -/

/-- The reference's second product is `max (a · diag d + b) 0 · w` over the kernel's first aggregate. -/
theorem v51_eq (x0 : FVec Ideal Cert.KernelIdeal.S50000x128 .f32) (x1 : IVec Cert.KernelIdeal.S2x800000 32) (x2 : FVec Ideal Cert.KernelIdeal.S128x128 .f32) (x3 : FVec Ideal Cert.KernelIdeal.S128 .f32) (x4 : FVec Ideal Cert.KernelIdeal.S128x64 .f32) :
    val_main_v51 (F := Ideal) x0 x1 x2 x3 x4
      = xw2 (aggregate128 (Cert.Spec.scaledProduct x0 x2 (dinvCol x1)) (srcRows x1) (dstRows x1)) (dinv x1) x3 x4 := funext fun i => by
  obtain ⟨a, b, rfl⟩ : ∃ (a : Fin 50000) (b : Fin 64), i = ix2 a b := ⟨i 0, i 1, eq_ix2 i⟩
  rw [v51_apply]
  show _ = ∑ k : Fin 128, max (aggregate128 (Cert.Spec.scaledProduct x0 x2 (dinvCol x1)) (srcRows x1) (dstRows x1) (ix2 a k) * dinv x1 (ix1 a) + x3 (ix1 k)) 0 * x4 (ix2 k b)
  refine Finset.sum_congr rfl fun k _ => ?_
  rw [v47_apply, hidden_eq]

/-- The kernel's logits are the reference's, entry by entry. -/
theorem logits_eq (x0 : FVec Ideal Cert.KernelIdeal.S50000x128 .f32) (x1 : IVec Cert.KernelIdeal.S2x800000 32) (x2 : FVec Ideal Cert.KernelIdeal.S128x128 .f32) (x3 : FVec Ideal Cert.KernelIdeal.S128 .f32) (x4 : FVec Ideal Cert.KernelIdeal.S128x64 .f32) (x5 : FVec Ideal Cert.KernelIdeal.S64 .f32) (r : Fin 50000) (c : Fin 64) :
    Cert.Spec.logits
        (aggregate64 (Cert.Spec.hiddenScaled
            (aggregate128 (Cert.Spec.scaledProduct x0 x2 (dinvCol x1)) (srcRows x1) (dstRows x1))
            (dinvCol x1) (shapeCast Cert.KernelIdeal.S1x128 x3 Cert.KernelIdeal.Facts₀.shapeCasts_S128_S1x128) x4) (srcRows x1) (dstRows x1))
        (dinvCol x1) (shapeCast Cert.KernelIdeal.S1x64 x5 Cert.KernelIdeal.Facts₀.shapeCasts_S64_S1x64) (ix2 r c)
      = val_main_v90 (F := Ideal) x0 x1 x2 x3 x4 x5 (ix2 r c) := by
  rw [layer2, v51_eq]
  rw [← Cert.Identify.wrapSrc_v80 x1, ← Cert.Identify.wrapSrc_v65 x1, ← Cert.Identify.wrapDst_v72 x1,
    ← Cert.Identify.dstCol_v86 x1, ← Cert.Identify.dinv_v59 x1]
  generalize aggregate128 (Cert.Spec.scaledProduct x0 x2 (dinvCol x1)) (srcRows x1) (dstRows x1) = A1
  show aggregate64 (Cert.Spec.hiddenScaled A1 (dinvCol x1) (shapeCast Cert.KernelIdeal.S1x128 x3 Cert.KernelIdeal.Facts₀.shapeCasts_S128_S1x128) x4) (srcRows x1) (dstRows x1) (ix2 r c)
        * dinvCol x1 (ix2 r (0 : Fin 1))
      + (shapeCast Cert.KernelIdeal.S1x64 x5 Cert.KernelIdeal.Facts₀.shapeCasts_S64_S1x64) (ix2 (0 : Fin 1) c) = _
  rw [aggregate64_eq, dinvCol_apply, biasRow64_apply,
    hiddenScaled_eq A1 (dinvCol x1) (shapeCast Cert.KernelIdeal.S1x128 x3 Cert.KernelIdeal.Facts₀.shapeCasts_S128_S1x128) x4 (dinv x1) x3
      (dinvCol_apply x1) (biasRow128_apply x3)]
  have hd := dinv_nonneg_ne_top x1
  have hw := rowOf_wrapCol (dstRows x1)
  generalize dinv x1 = dv at hd ⊢
  generalize wrapCol (srcRows x1) = src
  generalize wrapCol (dstRows x1) = dstw at hw ⊢
  generalize (broadcastInDim Cert.KernelIdeal.S850000x1 ![0] Cert.KernelIdeal.Facts₀.bcast_S850000_S850000x1_0 (dstRows x1)) = dst at hw ⊢
  generalize xw2 A1 dv x3 x4 = xw
  exact congrArg (· + x5 (ix1 c)) (scaled_layer wfK64 wf64 xw dv hd src dst dstw hw r c)

/-! ## The result -/

/-- THE KERNEL'S VALUE IS THE REFERENCE'S. -/
theorem value_eq (x0 : FVec Ideal Cert.KernelIdeal.S50000x128 .f32) (x1 : IVec Cert.KernelIdeal.S2x800000 32) (x2 : FVec Ideal Cert.KernelIdeal.S128x128 .f32) (x3 : FVec Ideal Cert.KernelIdeal.S128 .f32) (x4 : FVec Ideal Cert.KernelIdeal.S128x64 .f32) (x5 : FVec Ideal Cert.KernelIdeal.S64 .f32) :
    kernelValue x0 x1 x2 x3 x4 x5 = val_main_v91 (F := Ideal) x0 x1 x2 x3 x4 x5 := by
  rw [ref_logSoftmax]
  unfold kernelValue
  refine congrArg Cert.Spec.logSoftmaxRows (funext fun i => ?_)
  obtain ⟨r, c, rfl⟩ : ∃ (r : Fin 50000) (c : Fin 64), i = ix2 r c := ⟨i 0, i 1, eq_ix2 i⟩
  exact logits_eq x0 x1 x2 x3 x4 x5 r c

end Cert.Bridge

end
-- ==== Proof.lean ====
/-
  The certificate of a two-layer graph convolution (symmetric normalisation, self loops, ReLU, log-softmax) written as
  three tiled kernels with the gather / segment-sum of the edges on the host between them, against the plain jnp
  formulation.

  Both programs compute, with `d` the inverse square-root degrees, `S e` / `D e` the source / destination row of edge `e`:
  the kernel scales the rows of `x · W` by `d` BEFORE the edges are gathered and scales each aggregated row by `d` AFTER
  the segment sum; the reference multiplies each gathered row by `d[S e] · d[D e]` and sums. The two agree on the extended
  reals because `d` is nonnegative and finite (so multiplication by it distributes over every sum, Proof/LibSegmentSum.lean,
  Proof/Aggregate.lean) and because an edge the segment sum keeps has its destination row in range, where the gather's
  clamp and the wrap of negative indices are the identity. The matrix products and the row-wise log-softmax are the same
  sums and the same maxima on both sides (Proof/Region*.lean read the three kernels block by block into whole-array
  functions, Proof/Ref*.lean read the reference). No finiteness of the inputs is used.

  The frames of the two kernel programs are the generated ones; the reference's frame is its run with the result dropped.
-/
import proofs.«130009_j68779606278426_2_alg».proof.Defs
import proofs.«130009_j68779606278426_2_alg».proof.Proof.Gen.Kernel
import proofs.«130009_j68779606278426_2_alg».proof.Proof.Gen.Kernel.Skeleton
import proofs.«130009_j68779606278426_2_alg».proof.Proof.Gen.Kernel.Launch
import proofs.«130009_j68779606278426_2_alg».proof.Proof.Gen.Kernel.Points
import proofs.«130009_j68779606278426_2_alg».proof.Proof.Gen.Kernel.Frame
import proofs.«130009_j68779606278426_2_alg».proof.Proof.Gen.KernelIdeal
import proofs.«130009_j68779606278426_2_alg».proof.Proof.Gen.KernelIdeal.Skeleton
import proofs.«130009_j68779606278426_2_alg».proof.Proof.Gen.KernelIdeal.Launch
import proofs.«130009_j68779606278426_2_alg».proof.Proof.Gen.KernelIdeal.Points
import proofs.«130009_j68779606278426_2_alg».proof.Proof.Gen.KernelIdeal.Frame
import proofs.«130009_j68779606278426_2_alg».proof.Proof.Gen.ReferenceIdeal
import proofs.«130009_j68779606278426_2_alg».proof.Proof.Gen.Pre_finite_inputs
import proofs.«130009_j68779606278426_2_alg».proof.Proof.KernelRun
import proofs.«130009_j68779606278426_2_alg».proof.Proof.KernelValue
import proofs.«130009_j68779606278426_2_alg».proof.Proof.RefRunValue
import proofs.«130009_j68779606278426_2_alg».proof.Proof.Bridge
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunValue.run m ρ)

/-- The ideal pass rewrote nothing. -/
theorem preserves : Cert.preserves_Kernel_KernelIdeal := trivial

/-- Both runs end at one function of the arguments. -/
theorem algebraic : Cert.algebraic_KernelIdeal_ReferenceIdeal := by
  intro m ρ m' ρ' _ hagree
  refine ⟨fun c => Cert.KernelIdeal.Out.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Out.out8 m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.RunValue.run m' ρ')
    rw [(hagree c).1, (hagree c).2.1, (hagree c).2.2.1, (hagree c).2.2.2.1, (hagree c).2.2.2.2.1, (hagree c).2.2.2.2.2]
    exact (Cert.Bridge.value_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
